-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  main_v3
-- ==== Kernel.lean ====
abbrev S32x2048x64 : Shape := ⟨3, ![32, 2048, 64]⟩
abbrev S32x8x128 : Shape := ⟨3, ![32, 8, 128]⟩
abbrev S1x512x64 : Shape := ⟨3, ![1, 512, 64]⟩
abbrev S1x2048x64 : Shape := ⟨3, ![1, 2048, 64]⟩
abbrev S1x8x128 : Shape := ⟨3, ![1, 8, 128]⟩
abbrev S512x64 : Shape := ⟨2, ![512, 64]⟩
abbrev S2048x64 : Shape := ⟨2, ![2048, 64]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S64x2048 : Shape := ⟨2, ![64, 2048]⟩
abbrev S512x2048 : Shape := ⟨2, ![512, 2048]⟩
abbrev S1x2048 : Shape := ⟨2, ![1, 2048]⟩
abbrev S1 : Shape := ⟨1, ![1]⟩
abbrev S1x1 : Shape := ⟨2, ![1, 1]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩

abbrev nBuf : Space → Nat
  | .hbm => 20
  | .vmem => 8
  | .smem => 0
  | _ => 0

abbrev bufTy : (tb : Table) → Fin (tcTables nBuf tb) → BufTy
  | .hbm, ⟨0, _⟩ => ⟨S32x2048x64, .f32⟩
  | .hbm, ⟨1, _⟩ => ⟨S32x8x128, .f32⟩
  | .hbm, ⟨2, _⟩ => ⟨S32x8x128, .f32⟩
  | .hbm, ⟨3, _⟩ => ⟨S32x1x1, .f32⟩
  | .hbm, ⟨4, _⟩ => ⟨S32, .f32⟩
  | .hbm, ⟨5, _⟩ => ⟨S32x1x1, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x64_S512 : S512x64.Reduces [1] S512
  shapeCasts_S512_S512x1 : S512.ShapeCasts S512x1
  reduces_S2048x64_S2048 : S2048x64.Reduces [1] S2048
  shapeCasts_S2048_S2048x1 : S2048.ShapeCasts S2048x1
  bitsLt_bf16_f32 : FTy.bits .bf16 < FTy.bits .f32
  transposes_S2048x64_p1_0_S64x2048 : S2048x64.Transposes [1, 0] S64x2048
  transposes_S2048x1_p1_0_S1x2048 : S2048x1.Transposes [1, 0] S1x2048
  broadcasts_S512x1_S512x2048 : S512x1.Broadcasts S512x2048
  broadcasts_S1x2048_S512x2048 : S1x2048.Broadcasts S512x2048
  iota_S512x2048_d0_w32 : S512x2048.Iotas .tc 32 [0]
  iota_S512x2048_d1_w32 : S512x2048.Iotas .tc 32 [1]
  reduces_S512x2048_S512 : S512x2048.Reduces [1] S512
  reduces_S512x1_S1 : S512x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  slices_S32x8x128_S32x1x1_0_0_0 : S32x8x128.Slices ![0, 0, 0] S32x1x1
  shapeCasts_S32x1x1_S32 : S32x1x1.ShapeCasts S32
  bcast_S_S32 : S_.BroadcastsInDim S32 (![] : Fin 0 → Fin S32.rank)
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S32x8x128.size a
  hwx0_3 : ∀ i : grid0.Coords, EltTy.bits .f32 = 32 ∨ (Rect.block (s := S32x8x128) S1x8x128.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S_ : Shape := ⟨0, ![]⟩
abbrev S32x2048 : Shape := ⟨2, ![32, 2048]⟩
abbrev S32x2048x2048 : Shape := ⟨3, ![32, 2048, 2048]⟩
abbrev S32x2048x1 : Shape := ⟨3, ![32, 2048, 1]⟩
abbrev S32x1x2048 : Shape := ⟨3, ![32, 1, 2048]⟩
abbrev S32 : Shape := ⟨1, ![32]⟩

abbrev nBuf : Space → Nat
  | .hbm => 41
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S_, .f32⟩
  | .hbm, ⟨3, _⟩ => ⟨S32x2048, .f32⟩
  | .hbm, ⟨4, _⟩ => ⟨S32x2048x2048, .f32⟩
  | .hbm, ⟨5, _⟩ => ⟨S32x2048x1, .f32⟩
  | .hbm, ⟨6, _⟩ => ⟨S32x1x2048, .f32⟩
  | .hbm, ⟨7, _⟩ => ⟨S32x2048x2048, .f32⟩
  | .hbm, ⟨8, _⟩ => ⟨S32x2048x2048, .f32⟩
  | .hbm, ⟨9, _⟩ => ⟨S32x2048x2048, .f32⟩
  | .hbm, ⟨10, _⟩ => ⟨S_, .f32⟩
  | .hbm, ⟨11, _⟩ => ⟨S32x2048x2048, .f32⟩
  | .hbm, ⟨12, _⟩ => ⟨S32x2048x2048, .f32⟩
  | .hbm, ⟨13, _⟩ => ⟨S32x2048x2048, .f32⟩
  | .hbm, ⟨14, _⟩ => ⟨S32x2048x2048, .f32⟩
  | .hbm, ⟨15, _⟩ => ⟨S_, .f32⟩
  | .hbm, ⟨16, _⟩ => ⟨S32x2048x2048, .f32⟩
  | .hbm, ⟨17, _⟩ => ⟨S32x2048x2048, .f32⟩
  | .hbm, ⟨18, _⟩ => ⟨S32x2048x2048, .f32⟩
  | .hbm, ⟨19, _⟩ => ⟨S32x2048, .f32⟩
  | .hbm, ⟨20, _⟩ => ⟨S_, .f32⟩
  | .hbm, ⟨21, _⟩ => ⟨S32x2048, .f32⟩
  | .hbm, ⟨22, _⟩ => ⟨S32x2048, .f32⟩
  | .hbm, ⟨23, _⟩ => ⟨S32x2048, .f32⟩
  | .hbm, ⟨24, _⟩ => ⟨S_, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_cst_8 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  reducesTo_S32x2048x64_S32x2048_d2 : S32x2048x64.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  bcast_S_S32x2048 : S_.BroadcastsInDim S32x2048 (![] : Fin 0 → Fin S32x2048.rank)
  reducesTo_S32x2048x2048_S32_d1_2 : S32x2048x2048.ReducesTo [1, 2] S32
  bcast_S_S32 : S_.BroadcastsInDim S32 (![] : Fin 0 → Fin S32.rank)
  reducesTo_S32x2048_S32_d1 : S32x2048.ReducesTo [1] S32
  dot_S32x2048x64_S32x2048x64_S32x2048x2048_2_2_1_1_0_0_wf : DotDims.WF S32x2048x64 S32x2048x64 S32x2048x2048 [2] [2] [1] [1] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf

class Facts : Prop extends Facts₀ where

variable [Facts]
-- ==== Proof.Dats.lean ====
import proofs.«141074_j60129542698_2_alg».proof.Proof.Gen.KernelIdeal.Launch
import proofs.«141074_j60129542698_2_alg».proof.Proof.Gen.KernelIdeal.Skeleton
import proofs.«141074_j60129542698_2_alg».proof.Proof.Gen.KernelIdeal.Points
import Idealize.ShloMosaic.Lib.Pipeline.FrameBody
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
# What the pipeline's staging buffers hold, point by point

Grid point `t` has coordinates `(b, i)`.  Window 0 stages rows `512·i …` of batch `b`, window 1 all rows of
batch `b`, windows 2 and 3 the two accumulator blocks of batch `b`.  The body leaves the input blocks as they
are; into each accumulator it stores the previous contents (zero when `i = 0`) plus this point's partial sum.
-/

variable (m : (ℓ : Loc nD τ sig) → Buf (Elt F) ℓ) (ρ : Dev nD → PrngReg)

/-- Core `c`'s buffers when the kernel region is entered: as launched (the region is the program's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The two accumulator blocks after the body at point `n`: this point's partial sums added to zero at the first
    point of a batch (`n ≡ 0 mod 4`), and to what the point before left otherwise. -/
def outs (c : Dev nD) : (n : ℕ) → n < cfg0.N → Vec F S1x8x128 .f32 × Vec F S1x8x128 .f32
  | 0, hn =>
    (k0_pay1 (k0_pay7 (grid0.coords ⟨0, hn⟩) (iblk m c 0 ⟨0, hn⟩) (iblk m c 1 ⟨0, hn⟩)) (k0_pay3 (F := F)),
     k0_pay2 (k0_pay6 (iblk m c 0 ⟨0, hn⟩)) (k0_pay4 (F := F)))
  | n + 1, hn =>
    if (n + 1) % 4 = 0 then
      (k0_pay1 (k0_pay7 (grid0.coords ⟨n + 1, hn⟩) (iblk m c 0 ⟨n + 1, hn⟩) (iblk m c 1 ⟨n + 1, hn⟩)) (k0_pay3 (F := F)),
       k0_pay2 (k0_pay6 (iblk m c 0 ⟨n + 1, hn⟩)) (k0_pay4 (F := F)))
    else
      (k0_pay1 (k0_pay7 (grid0.coords ⟨n + 1, hn⟩) (iblk m c 0 ⟨n + 1, hn⟩) (iblk m c 1 ⟨n + 1, hn⟩)) (outs c n (Nat.lt_of_succ_lt hn)).1,
       k0_pay2 (k0_pay6 (iblk m c 0 ⟨n + 1, hn⟩)) (outs c n (Nat.lt_of_succ_lt hn)).2)

/-- At the first point of a batch the accumulators start from zero. -/
theorem outs_first (c : Dev nD) (t : Fin cfg0.N) (h0 : t.val % 4 = 0) :
    outs m c t.val t.isLt =
      (k0_pay1 (k0_pay7 (grid0.coords t) (iblk m c 0 t) (iblk m c 1 t)) (k0_pay3 (F := F)),
       k0_pay2 (k0_pay6 (iblk m c 0 t)) (k0_pay4 (F := F))) := by
  obtain ⟨n, hn⟩ := t
  cases n with
  | zero => rfl
  | succ n => exact (if_pos h0).trans rfl

/-- At a later point of a batch they continue from the point before. -/
theorem outs_later (c : Dev nD) (t : Fin cfg0.N) (h0 : ¬ t.val % 4 = 0) :
    outs m c t.val t.isLt =
      (k0_pay1 (k0_pay7 (grid0.coords t) (iblk m c 0 t) (iblk m c 1 t)) (outs m c (t.val - 1) (Nat.lt_of_le_of_lt (Nat.sub_le _ _) t.isLt)).1,
       k0_pay2 (k0_pay6 (iblk m c 0 t)) (outs m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The pipeline's proof data on core `c`: the arrays as the region finds them; after the body each input's buffer
    at its block and the accumulators' at `outs`; the two input windows read ONE array, each holding half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outs m c t.val t.isLt).1 := by dsimp only [dats]
theorem after0_3 (c : Dev nD) (t : Fin cfg0.N) : (dats m 0 c).after 3 t = (outs m c t.val t.isLt).2 := by dsimp only [dats]

end Cert.KernelIdeal.Fr

end
-- ==== Proof.Body.lean ====
import proofs.«141074_j60129542698_2_alg».proof.Proof.Gen.KernelIdeal.Launch
import proofs.«141074_j60129542698_2_alg».proof.Proof.Gen.KernelIdeal.Skeleton
import proofs.«141074_j60129542698_2_alg».proof.Proof.Gen.KernelIdeal.Points
import Idealize.ShloMosaic.Lib.Pipeline.FrameBody
import Idealize.ShloMosaic.Lib.Tactic
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
# The kernel body as a triple

The body is run symbolically on whole staging buffers.  Its stores are whole-block stores, so each accumulator
ends at the last store's value: the body's arithmetic (the named payloads) of the two input blocks and of the
accumulator's contents before the store.
-/

/-- The body's branch condition: the second grid coordinate is zero (the first point of a batch). -/
abbrev isFirst (i : grid0.Coords) : Prop := (Scalar.cmpi .ne (Scalar.extui (Scalar.cmpi .eq (BitVec.ofNat 32 (i 1).val) 0#32)) 0#32) = 1#1

theorem hz3 : (![0, 0, 0] : Fin 3 → Nat) = fun _ => 0 := by
  funext a; match a with | ⟨0, _⟩ => rfl | ⟨1, _⟩ => rfl | ⟨2, _⟩ => rfl

set_option maxHeartbeats 1000000 in
/-- The body at the first point of a batch, on whole staging buffers holding the two input blocks: it zeroes both
    accumulators, loads the blocks, and stores into each accumulator zero plus this point's partial sum; the input
    buffers are left as they were. -/
theorem runFirst (c : Dev nD) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S1x8x128 .f32) (harg4 : arg4.IsWhole) (arg5 : Memref sig .tc .vmem S1x8x128 .f32) (harg5 : arg5.IsWhole)
    (hc : isFirst i) (x0 : Vec F S1x512x64 .f32) (x1 : Vec F S1x2048x64 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay1 (k0_pay7 i x0 x1) (k0_pay3 (F := F)))
            ∗ owns (c : Thread nD τ) arg5 fullShare (k0_pay2 (k0_pay6 x0) (k0_pay4 (F := F)))) -∗ K ⟨⟩))
      ⊢ wp frame (wpE (defs₀ (F := F)) Variants.none c none) E (cc0__mmd_kernel i arg2 harg2 arg3 harg3 arg4 harg4 arg5 harg5) K := by
  simp only [cc0__mmd_kernel_eq_skeleton]; unfold cc0__mmd_kernel_skel
  simp only [k0_part1_eq_skeleton]
  unfold owns
  iintro ⟨⟨%f0, %hf0, H0⟩, ⟨%f1, %hf1, H1⟩, ⟨%d4, %f4, -, H4⟩, ⟨%d5, %f5, -, H5⟩, Hk⟩
  obtain rfl := harg2.eq_unread hf0
  obtain rfl := harg3.eq_unread hf1
  sl_exec (disch := first | exact hc)
  sl_step
  have e2 : View.readAt (Elt F) arg2.view (Rect.unit ![0, 0, 0] S1x512x64.size inb_S1x512x64_S1x512x64_0_0_0).toLoadRect (harg2.unread x0) = x0 := by
    rw [View.readAt_eq_ld, harg2.read_unread, View.ld_unit_zero (S := S1x512x64) hz3]
  have e3 : View.readAt (Elt F) arg3.view (Rect.unit ![0, 0, 0] S1x2048x64.size inb_S1x2048x64_S1x2048x64_0_0_0).toLoadRect (harg3.unread x1) = x1 := by
    rw [View.readAt_eq_ld, harg3.read_unread, View.ld_unit_zero (S := S1x2048x64) hz3]
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    refine (View.read_writes_eq_canon _ _ _ (fun y => ⟨_, List.mem_cons_self, View.mem_set_unit_zero (S := S1x8x128) hz3 inb_S1x8x128_S1x8x128_0_0_0 y⟩)).trans ?_
    rw [View.canon_cons_unit_zero (S := S1x8x128) hz3]
    sl_unfold_run_names
    exact congrArg₂ k0_pay1 (congrArg₂ (k0_pay7 i) e2 e3) (View.readCov_unit_zero (S := S1x8x128) _ hz3 _ _)
  · iexists _; isplitr
    swap; · iexact H5
    ipureintro
    refine (View.read_writes_eq_canon _ _ _ (fun y => ⟨_, List.mem_cons_self, View.mem_set_unit_zero (S := S1x8x128) hz3 inb_S1x8x128_S1x8x128_0_0_0 y⟩)).trans ?_
    rw [View.canon_cons_unit_zero (S := S1x8x128) hz3]
    sl_unfold_run_names
    exact congrArg₂ k0_pay2 (congrArg k0_pay6 e2) (View.readCov_unit_zero (S := S1x8x128) _ hz3 _ _)

set_option maxHeartbeats 1000000 in
/-- The body at a later point of a batch: the accumulators hold what the point before left (`a4`, `a5`) and each is
    stored back with this point's partial sum added. -/
theorem runLater (c : Dev nD) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S1x8x128 .f32) (harg4 : arg4.IsWhole) (arg5 : Memref sig .tc .vmem S1x8x128 .f32) (harg5 : arg5.IsWhole)
    (hc : ¬ isFirst i) (x0 : Vec F S1x512x64 .f32) (x1 : Vec F S1x2048x64 .f32) (a4 a5 : Vec F S1x8x128 .f32) (E : Set ℕ) (K : PUnit → sProp 𝕄) :
    iprop(owns (c : Thread nD τ) arg2 fullShare x0 ∗ owns (c : Thread nD τ) arg3 fullShare x1
        ∗ owns (c : Thread nD τ) arg4 fullShare a4 ∗ owns (c : Thread nD τ) arg5 fullShare a5
        ∗ (iprop(owns (c : Thread nD τ) arg2 fullShare x0 ∗ owns (c : Thread nD τ) arg3 fullShare x1
            ∗ owns (c : Thread nD τ) arg4 fullShare (k0_pay1 (k0_pay7 i x0 x1) a4)
            ∗ owns (c : Thread nD τ) arg5 fullShare (k0_pay2 (k0_pay6 x0) a5)) -∗ K ⟨⟩))
      ⊢ wp frame (wpE (defs₀ (F := F)) Variants.none c none) E (cc0__mmd_kernel i arg2 harg2 arg3 harg3 arg4 harg4 arg5 harg5) K := by
  simp only [cc0__mmd_kernel_eq_skeleton]; unfold cc0__mmd_kernel_skel
  simp only [k0_part1_eq_skeleton]
  unfold owns
  iintro ⟨⟨%f0, %hf0, H0⟩, ⟨%f1, %hf1, H1⟩, ⟨%f4, %hf4, H4⟩, ⟨%f5, %hf5, H5⟩, Hk⟩
  obtain rfl := harg2.eq_unread hf0
  obtain rfl := harg3.eq_unread hf1
  obtain rfl := harg4.eq_unread hf4
  obtain rfl := harg5.eq_unread hf5
  sl_exec (disch := first | exact hc)
  sl_step
  have e2 : View.readAt (Elt F) arg2.view (Rect.unit ![0, 0, 0] S1x512x64.size inb_S1x512x64_S1x512x64_0_0_0).toLoadRect (harg2.unread x0) = x0 := by
    rw [View.readAt_eq_ld, harg2.read_unread, View.ld_unit_zero (S := S1x512x64) hz3]
  have e3 : View.readAt (Elt F) arg3.view (Rect.unit ![0, 0, 0] S1x2048x64.size inb_S1x2048x64_S1x2048x64_0_0_0).toLoadRect (harg3.unread x1) = x1 := by
    rw [View.readAt_eq_ld, harg3.read_unread, View.ld_unit_zero (S := S1x2048x64) hz3]
  have e4 : View.readAt (Elt F) arg4.view (Rect.unit ![0, 0, 0] S1x8x128.size inb_S1x8x128_S1x8x128_0_0_0).toLoadRect (harg4.unread a4) = a4 := by
    rw [View.readAt_eq_ld, harg4.read_unread, View.ld_unit_zero (S := S1x8x128) hz3]
  have e5 : View.readAt (Elt F) arg5.view (Rect.unit ![0, 0, 0] S1x8x128.size inb_S1x8x128_S1x8x128_0_0_0).toLoadRect (harg5.unread a5) = a5 := by
    rw [View.readAt_eq_ld, harg5.read_unread, View.ld_unit_zero (S := S1x8x128) hz3]
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    refine (View.read_writes_eq_canon _ _ _ (fun y => ⟨_, List.mem_cons_self, View.mem_set_unit_zero (S := S1x8x128) hz3 inb_S1x8x128_S1x8x128_0_0_0 y⟩)).trans ?_
    rw [View.canon_cons_unit_zero (S := S1x8x128) hz3]
    sl_unfold_run_names
    exact congrArg₂ k0_pay1 (congrArg₂ (k0_pay7 i) e2 e3) e4
  · iexists _; isplitr
    swap; · iexact H5
    ipureintro
    refine (View.read_writes_eq_canon _ _ _ (fun y => ⟨_, List.mem_cons_self, View.mem_set_unit_zero (S := S1x8x128) hz3 inb_S1x8x128_S1x8x128_0_0_0 y⟩)).trans ?_
    rw [View.canon_cons_unit_zero (S := S1x8x128) hz3]
    sl_unfold_run_names
    exact congrArg₂ k0_pay2 (congrArg k0_pay6 e2) e5

end Cert.KernelIdeal.Body

end
-- ==== Proof.Oblig.lean ====
import proofs.«141074_j60129542698_2_alg».proof.Proof.Dats
import proofs.«141074_j60129542698_2_alg».proof.Proof.Body
import Idealize.ShloMosaic.Lib.Pipeline.FrameBody
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
# The body obligation

At every grid point the body, handed each window's current staging buffer at what the pipeline left there,
returns the input buffers unchanged and the two accumulators at `outs`.  The input buffers hold their blocks
whether or not they were fetched at this point (window 1's block index moves only with the batch).  The
accumulators' buffers are fresh at the first point of a batch — the point before wrote them back — and hold
what the point before left at the other three points.
-/

variable (m : (ℓ : Loc nD τ sig) → Buf (Elt F) ℓ) (ρ : Dev nD → PrngReg)

/-- The branch condition holds exactly at the points `≡ 0 (mod 4)`. -/
theorem first_iff : ∀ t : Fin cfg0.N, Body.isFirst (grid0.coords t) ↔ t.val % 4 = 0 :=
  (by decide +kernel : ∀ t : Fin grid0.N, Body.isFirst (grid0.coords t) ↔ t.val % 4 = 0)

/-- Window 0's buffer holds the row block at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Window 1's buffer holds the batch's column block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-- Away from the first point of a batch the first accumulator's buffer holds what the point before left: the
    pipeline writes it back only after the batch's fourth point. -/
theorem before0_2_later (c : Dev nD) (t : Fin cfg0.N) (h0 : ¬ t.val % 4 = 0) (d) :
    (dats m 0 c).before 2 t d = (outs m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- The same for the second accumulator. -/
theorem before0_3_later (c : Dev nD) (t : Fin cfg0.N) (h0 : ¬ t.val % 4 = 0) (d) :
    (dats m 0 c).before 3 t d = (outs m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: by cases on whether the point is the first of its batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [outs_first m c t h0]
    iintro ⟨HΦ, Ho, ⟨%d0, H0⟩, ⟨%d1, H1⟩, ⟨%d2, H2⟩, ⟨%d3, H3⟩⟩
    iapply (Body.runFirst c (grid0.coords t) _ _ _ _ _ _ _ _ ((first_iff t).mpr h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outs_later m c t h0]
    simp only [before0_2_later m c t h0, before0_3_later m c t h0]
    iintro ⟨HΦ, Ho, ⟨%d0, H0⟩, ⟨%d1, H1⟩, ⟨%d2, H2⟩, ⟨%d3, H3⟩⟩
    iapply (Body.runLater c (grid0.coords t) _ _ _ _ _ _ _ _ (fun h => h0 ((first_iff t).mp h)) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.Acc.lean ====
import proofs.«141074_j60129542698_2_alg».proof.Proof.Gen.KernelIdeal.Skeleton
import Idealize.ShloMosaic.Lib.ValueIdx

/-!
# The kernel's results as functions of the input array

The kernel walks a 32 × 4 grid.  At grid point `(b, i)` it reads rows `512·i … 512·i+511` of batch `b`
(the row block) and all 2048 rows of batch `b` (the column block), and adds one partial sum to each of two
8 × 128 accumulator blocks of batch `b`; at `i = 0` the accumulators are first set to zero.  Here the two
accumulators after step `i` are written as a recursion over the body's arithmetic, and the two result arrays
and the closing host arithmetic as functions of the whole input array.
-/

noncomputable section

namespace Cert.KernelIdeal.Acc

open Idealize.ShloMosaic Idealize.ShloMosaic.ValueIdx Cert.KernelIdeal Cert.KernelIdeal.Gen

variable {F : FTy → Type} [FloatOps F]

/-- Rows `512·i … 512·i+511` of batch `b`. -/
def rowBlk (x : Vec F S32x2048x64 .f32) (b : Fin 32) (i : Fin 4) : Vec F S1x512x64 .f32 :=
  fun y => x (ix3 b ⟨512 * i.val + (y 1).val, by have h1 : (y 1).val < 512 := (y 1).isLt; have := i.isLt; show _ < 2048; omega⟩ ⟨(y 2).val, (y 2).isLt⟩)

/-- All rows of batch `b`. -/
def colBlk (x : Vec F S32x2048x64 .f32) (b : Fin 32) : Vec F S1x2048x64 .f32 :=
  fun y => x (ix3 b ⟨(y 1).val, (y 1).isLt⟩ ⟨(y 2).val, (y 2).isLt⟩)

/-- The grid point `(b, i)`. -/
def pt (b : Fin 32) (i : Fin 4) : grid0.Coords := fun a => match a with
  | ⟨0, _⟩ => b
  | ⟨1, _⟩ => i

/-- Step `i` of batch `b` adds to the first accumulator the sum over the row block's rows and all columns of the
    masked exponentials. -/
def stepYY (x : Vec F S32x2048x64 .f32) (b : Fin 32) (i : Fin 4) (prev : Vec F S1x8x128 .f32) : Vec F S1x8x128 .f32 :=
  k0_pay1 (k0_pay7 (pt b i) (rowBlk x b i) (colBlk x b)) prev

/-- Step `i` of batch `b` adds to the second accumulator the sum over the row block's rows of `exp (-‖row‖² / 4)`. -/
def stepXY (x : Vec F S32x2048x64 .f32) (b : Fin 32) (i : Fin 4) (prev : Vec F S1x8x128 .f32) : Vec F S1x8x128 .f32 :=
  k0_pay2 (k0_pay6 (rowBlk x b i)) prev

/-- The first accumulator of batch `b` after steps `0 … n` (`n ≤ 3`), from zero. -/
def accYY (x : Vec F S32x2048x64 .f32) (b : Fin 32) : ℕ → Vec F S1x8x128 .f32
  | 0 => stepYY x b 0 (k0_pay3 (F := F))
  | n + 1 => stepYY x b ⟨(n + 1) % 4, Nat.mod_lt _ (by decide)⟩ (accYY x b n)

/-- The second accumulator of batch `b` after steps `0 … n` (`n ≤ 3`), from zero. -/
def accXY (x : Vec F S32x2048x64 .f32) (b : Fin 32) : ℕ → Vec F S1x8x128 .f32
  | 0 => stepXY x b 0 (k0_pay4 (F := F))
  | n + 1 => stepXY x b ⟨(n + 1) % 4, Nat.mod_lt _ (by decide)⟩ (accXY x b n)

/-- The first result array: batch `b`'s block is its accumulator after the fourth step. -/
def yyArr (x : Vec F S32x2048x64 .f32) : Vec F S32x8x128 .f32 :=
  fun j => accYY x ⟨(j 0).val, (j 0).isLt⟩ 3 (ix3 (0 : Fin 1) ⟨(j 1).val, (j 1).isLt⟩ ⟨(j 2).val, (j 2).isLt⟩)

/-- The second result array. -/
def xyArr (x : Vec F S32x2048x64 .f32) : Vec F S32x8x128 .f32 :=
  fun j => accXY x ⟨(j 0).val, (j 0).isLt⟩ 3 (ix3 (0 : Fin 1) ⟨(j 1).val, (j 1).isLt⟩ ⟨(j 2).val, (j 2).isLt⟩)

/-- The closing host arithmetic on the two result arrays: entry `[b, 0, 0]` of each,
    `c₀ + yy / 4192256 - (2⁻¹⁰ · xy) · 2⁻³²`. -/
def tail (yy xy : Vec F S32x8x128 .f32) : Vec F S32 .f32 :=
  subf (addf (broadcastInDim S32 ![] bcast_S_S32 (constant S_ .f32 0x261B8BD8#32))
      (Host.divf (shapeCast S32 (extractStridedSlice S32x1x1 ![0, 0, 0] yy slices_S32x8x128_S32x1x1_0_0_0) shapeCasts_S32x1x1_S32)
        (broadcastInDim S32 ![] bcast_S_S32 (constant S_ .f32 0x4A7FE000#32))))
    (mulf (mulf (broadcastInDim S32 ![] bcast_S_S32 (constant S_ .f32 0x3A800000#32))
        (shapeCast S32 (extractStridedSlice S32x1x1 ![0, 0, 0] xy slices_S32x8x128_S32x1x1_0_0_0) shapeCasts_S32x1x1_S32))
      (broadcastInDim S32 ![] bcast_S_S32 (constant S_ .f32 0x2F800000#32)))

/-- The kernel program's result as a function of its input. -/
def result (x : Vec F S32x2048x64 .f32) : Vec F S32 .f32 := tail (yyArr x) (xyArr x)

end Cert.KernelIdeal.Acc

end
-- ==== Proof.Final.lean ====
import proofs.«141074_j60129542698_2_alg».proof.Proof.Dats
import proofs.«141074_j60129542698_2_alg».proof.Proof.Acc
import Idealize.ShloMosaic.Lib.Pipeline.Value
import Idealize.ShloMosaic.Lib.Pipeline.FrameBody
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-!
# The two result arrays after the run

Point `t = 4·b + i` of the grid is batch `b`, row tile `i`.  Its input blocks are rows `512·i …` and all rows of
batch `b` of the input array, so the accumulators after it are the recursion `Acc.accYY`, `Acc.accXY` of the
array at step `i`.  Each accumulator block is written back after the batch's fourth point, to block `b` of its
result array; the 32 blocks tile the array.
-/

variable (m : (ℓ : Loc nD τ sig) → Buf (Elt F) ℓ) (ρ : Dev nD → PrngReg)

/-- The input array on core `c`. -/
abbrev xin (c : Dev nD) : Vec F S32x2048x64 .f32 := m ((c : Thread nD τ).loc main_arg0)

/-- The printed index maps and the grid's coordinates at point `t`, decided over the 128 points: batch `t / 4`,
    row tile `t % 4`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ (grid0.coords t (0 : Fin 2)).val = t.val / 4 ∧ (grid0.coords t (1 : Fin 2)).val = t.val % 4 :=
  (by decide +kernel : ∀ t : Fin grid0.N, _)

/-- Window 0's block at point `4·b + i` is rows `512·i …` of batch `b`. -/
theorem iblk0_eq (c : Dev nD) (t : Fin cfg0.N) (b : Fin 32) (i : Fin 4) (ht : t.val = 4 * b.val + i.val) :
    iblk m c 0 t = Acc.rowBlk (xin m c) b i := by
  obtain ⟨e0, e1, e2, -⟩ := idx_facts t
  have hb := b.isLt; have hi := i.isLt
  funext y
  have h0 : (y 0).val < 1 := (y 0).isLt
  have h1 : (y 1).val < 512 := (y 1).isLt
  have h2 : (y 2).val < 64 := (y 2).isLt
  show V m c main_arg0 (((cfg0.win 0).blk t).view.emb y) = xin m c (ix3 b ⟨512 * i.val + (y 1).val, _⟩ ⟨(y 2).val, _⟩)
  refine congrArg (xin m c) ?_
  funext a; apply Fin.ext
  match a with
  | ⟨0, _⟩ => show win0_0.index t (0 : Fin 3) * 1 + 1 * (y 0).val = b.val; omega
  | ⟨1, _⟩ => show win0_0.index t (1 : Fin 3) * 512 + 1 * (y 1).val = 512 * i.val + (y 1).val; omega
  | ⟨2, _⟩ => show win0_0.index t (2 : Fin 3) * 64 + 1 * (y 2).val = (y 2).val; omega

/-- Window 1's block at point `4·b + i` is all rows of batch `b`. -/
theorem iblk1_eq (c : Dev nD) (t : Fin cfg0.N) (b : Fin 32) (i : Fin 4) (ht : t.val = 4 * b.val + i.val) :
    iblk m c 1 t = Acc.colBlk (xin m c) b := by
  obtain ⟨-, -, -, e0, e1, e2, -⟩ := idx_facts t
  have hb := b.isLt; have hi := i.isLt
  funext y
  have h0 : (y 0).val < 1 := (y 0).isLt
  have h1 : (y 1).val < 2048 := (y 1).isLt
  have h2 : (y 2).val < 64 := (y 2).isLt
  show V m c main_arg0 (((cfg0.win 1).blk t).view.emb y) = xin m c (ix3 b ⟨(y 1).val, _⟩ ⟨(y 2).val, _⟩)
  refine congrArg (xin m c) ?_
  funext a; apply Fin.ext
  match a with
  | ⟨0, _⟩ => show win0_1.index t (0 : Fin 3) * 1 + 1 * (y 0).val = b.val; omega
  | ⟨1, _⟩ => show win0_1.index t (1 : Fin 3) * 2048 + 1 * (y 1).val = (y 1).val; omega
  | ⟨2, _⟩ => show win0_1.index t (2 : Fin 3) * 64 + 1 * (y 2).val = (y 2).val; omega

/-- The grid coordinates of point `4·b + i`. -/
theorem coords_eq (t : Fin cfg0.N) (b : Fin 32) (i : Fin 4) (ht : t.val = 4 * b.val + i.val) :
    grid0.coords t = Acc.pt b i := by
  obtain ⟨-, -, -, -, -, -, -, -, -, -, -, -, g0, g1⟩ := idx_facts t
  have hb := b.isLt; have hi := i.isLt
  funext a; apply Fin.ext
  match a with
  | ⟨0, _⟩ => show (grid0.coords t (0 : Fin 2)).val = b.val; omega
  | ⟨1, _⟩ => show (grid0.coords t (1 : Fin 2)).val = i.val; omega

theorem outs_congr (c : Dev nD) {n n' : ℕ} (h : n = n') (hn : n < cfg0.N) (hn' : n' < cfg0.N) :
    outs m c n hn = outs m c n' hn' := by subst h; rfl

/-- After step `k` of batch `b` the accumulators are the recursion's. -/
theorem outs_eq (c : Dev nD) (b : Fin 32) : ∀ (k : ℕ) (hk : k < 4) (hn : 4 * b.val + k < cfg0.N),
    outs m c (4 * b.val + k) hn = (Acc.accYY (xin m c) b k, Acc.accXY (xin m c) b k)
  | 0, hk, hn => by
    have ht : (⟨4 * b.val + 0, hn⟩ : Fin cfg0.N).val = 4 * b.val + (0 : Fin 4).val := rfl
    rw [outs_first m c ⟨4 * b.val + 0, hn⟩ (by show (4 * b.val + 0) % 4 = 0; omega),
      iblk0_eq m c _ b 0 ht, iblk1_eq m c _ b 0 ht, coords_eq _ b 0 ht]
    rfl
  | k + 1, hk, hn => by
    have hlt : (k + 1) % 4 < 4 := Nat.mod_lt _ (by decide)
    have hmod : (k + 1) % 4 = k + 1 := Nat.mod_eq_of_lt hk
    have ht : (⟨4 * b.val + (k + 1), hn⟩ : Fin cfg0.N).val = 4 * b.val + (⟨(k + 1) % 4, hlt⟩ : Fin 4).val := by
      show 4 * b.val + (k + 1) = 4 * b.val + (k + 1) % 4; omega
    rw [outs_later m c ⟨4 * b.val + (k + 1), hn⟩ (by show ¬ (4 * b.val + (k + 1)) % 4 = 0; omega),
      iblk0_eq m c _ b ⟨(k + 1) % 4, hlt⟩ ht, iblk1_eq m c _ b ⟨(k + 1) % 4, hlt⟩ ht, coords_eq _ b ⟨(k + 1) % 4, hlt⟩ ht,
      outs_congr m c (show 4 * b.val + (k + 1) - 1 = 4 * b.val + k by omega) _ (by omega),
      outs_eq c b k (by omega) (by omega)]
    rfl

theorem hN : cfg0.N = 128 := N_0
theorem lt_N {n : ℕ} (h : n < 128) : n < cfg0.N := lt_of_lt_of_eq h hN.symm

/-- An index of a result array is in point `t`'s block iff each coordinate is in the block's range. -/
theorem mem_blk2 (t : Fin cfg0.N) (i : S32x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0_0).slice (win0_2.rect t)).set ↔ _
  rw [View.set_slice_whole, Rect.mem_set_unit]
  exact Iff.rfl

theorem mem_blk3 (t : Fin cfg0.N) (i : S32x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_1).slice (win0_3.rect t)).set ↔ _
  rw [View.set_slice_whole, Rect.mem_set_unit]
  exact Iff.rfl

/-- What a write-back point writes of the first accumulator is its block of `Acc.yyArr`. -/
theorem flushed2_eq (c : Dev nD) (t : Fin cfg0.N) (hf : (cfg0.win 2).flush t = true) :
    (dats m 0 c).flushed 2 t = ((cfg0.win 2).blk t).view.read (Elt F) (Acc.yyArr (xin m c)) := by
  have h3 : t.val % 4 = 3 := (flush0_2 t).mp hf
  have hlt : t.val < 128 := lt_of_lt_of_eq t.isLt hN
  obtain ⟨-, -, -, -, -, -, e0, e1, e2, -⟩ := idx_facts t
  show (cfg0.win 2).cut (grid0.coords t) ((dats m 0 c).after 2 t) = _
  rw [after0_2, outs_congr m c (show t.val = 4 * (⟨t.val / 4, by omega⟩ : Fin 32).val + 3 by show t.val = 4 * (t.val / 4) + 3; omega) t.isLt (lt_N (by show 4 * (t.val / 4) + 3 < 128; omega)),
    outs_eq m c ⟨t.val / 4, by omega⟩ 3 (by decide) _]
  funext j
  have h0 : (j 0).val < 1 := (j 0).isLt
  have h1 : (j 1).val < 8 := (j 1).isLt
  have h2 : (j 2).val < 128 := (j 2).isLt
  show Acc.accYY (xin m c) ⟨t.val / 4, _⟩ 3 j = Acc.yyArr (xin m c) (((cfg0.win 2).blk t).view.emb j)
  have hj : j = ix3 (0 : Fin 1) ⟨(j 1).val, h1⟩ ⟨(j 2).val, h2⟩ := by
    funext a; apply Fin.ext
    match a with
    | ⟨0, _⟩ => show (j 0).val = 0; omega
    | ⟨1, _⟩ => rfl
    | ⟨2, _⟩ => rfl
  have he : ((cfg0.win 2).blk t).view.emb j = ix3 (⟨t.val / 4, by omega⟩ : Fin 32) (⟨(j 1).val, h1⟩ : Fin 8) (⟨(j 2).val, h2⟩ : Fin 128) := by
    funext a; apply Fin.ext
    match a with
    | ⟨0, _⟩ => show win0_2.index t (0 : Fin 3) * 1 + 1 * (j 0).val = t.val / 4; omega
    | ⟨1, _⟩ => show win0_2.index t (1 : Fin 3) * 8 + 1 * (j 1).val = (j 1).val; omega
    | ⟨2, _⟩ => show win0_2.index t (2 : Fin 3) * 128 + 1 * (j 2).val = (j 2).val; omega
  rw [he]
  exact congrArg (Acc.accYY (xin m c) ⟨t.val / 4, _⟩ 3) hj

/-- The same for the second accumulator. -/
theorem flushed3_eq (c : Dev nD) (t : Fin cfg0.N) (hf : (cfg0.win 3).flush t = true) :
    (dats m 0 c).flushed 3 t = ((cfg0.win 3).blk t).view.read (Elt F) (Acc.xyArr (xin m c)) := by
  have h3 : t.val % 4 = 3 := (flush0_3 t).mp hf
  have hlt : t.val < 128 := lt_of_lt_of_eq t.isLt hN
  obtain ⟨-, -, -, -, -, -, -, -, -, e0, e1, e2, -⟩ := idx_facts t
  show (cfg0.win 3).cut (grid0.coords t) ((dats m 0 c).after 3 t) = _
  rw [after0_3, outs_congr m c (show t.val = 4 * (⟨t.val / 4, by omega⟩ : Fin 32).val + 3 by show t.val = 4 * (t.val / 4) + 3; omega) t.isLt (lt_N (by show 4 * (t.val / 4) + 3 < 128; omega)),
    outs_eq m c ⟨t.val / 4, by omega⟩ 3 (by decide) _]
  funext j
  have h0 : (j 0).val < 1 := (j 0).isLt
  have h1 : (j 1).val < 8 := (j 1).isLt
  have h2 : (j 2).val < 128 := (j 2).isLt
  show Acc.accXY (xin m c) ⟨t.val / 4, _⟩ 3 j = Acc.xyArr (xin m c) (((cfg0.win 3).blk t).view.emb j)
  have hj : j = ix3 (0 : Fin 1) ⟨(j 1).val, h1⟩ ⟨(j 2).val, h2⟩ := by
    funext a; apply Fin.ext
    match a with
    | ⟨0, _⟩ => show (j 0).val = 0; omega
    | ⟨1, _⟩ => rfl
    | ⟨2, _⟩ => rfl
  have he : ((cfg0.win 3).blk t).view.emb j = ix3 (⟨t.val / 4, by omega⟩ : Fin 32) (⟨(j 1).val, h1⟩ : Fin 8) (⟨(j 2).val, h2⟩ : Fin 128) := by
    funext a; apply Fin.ext
    match a with
    | ⟨0, _⟩ => show win0_3.index t (0 : Fin 3) * 1 + 1 * (j 0).val = t.val / 4; omega
    | ⟨1, _⟩ => show win0_3.index t (1 : Fin 3) * 8 + 1 * (j 1).val = (j 1).val; omega
    | ⟨2, _⟩ => show win0_3.index t (2 : Fin 3) * 128 + 1 * (j 2).val = (j 2).val; omega
  rw [he]
  exact congrArg (Acc.accXY (xin m c) ⟨t.val / 4, _⟩ 3) hj

/-- Every index of the first result array lies in the block written back after its batch's fourth point. -/
theorem cover2 (i : S32x8x128.Idx) : ∃ t : Fin cfg0.N, (cfg0.win 2).flush t = true ∧ i ∈ ((cfg0.win 2).blk t).view.set := by
  have h0 : (i 0).val < 32 := (i 0).isLt
  have h1 : (i 1).val < 8 := (i 1).isLt
  have h2 : (i 2).val < 128 := (i 2).isLt
  refine ⟨⟨4 * (i 0).val + 3, lt_N (by omega)⟩, (flush0_2 _).mpr (by show (4 * (i 0).val + 3) % 4 = 3; omega), ?_⟩
  obtain ⟨-, -, -, -, -, -, e0, e1, e2, -⟩ := idx_facts ⟨4 * (i 0).val + 3, lt_N (by omega)⟩
  have e0' : win0_2.index ⟨4 * (i 0).val + 3, lt_N (by omega)⟩ (0 : Fin 3) = (4 * (i 0).val + 3) / 4 := e0
  rw [mem_blk2]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 8 ≤ (i 1).val ∧ (i 1).val < win0_2.index _ (1 : Fin 3) * 8 + 8; omega
  | ⟨2, _⟩ => show win0_2.index _ (2 : Fin 3) * 128 ≤ (i 2).val ∧ (i 2).val < win0_2.index _ (2 : Fin 3) * 128 + 128; omega

theorem cover3 (i : S32x8x128.Idx) : ∃ t : Fin cfg0.N, (cfg0.win 3).flush t = true ∧ i ∈ ((cfg0.win 3).blk t).view.set := by
  have h0 : (i 0).val < 32 := (i 0).isLt
  have h1 : (i 1).val < 8 := (i 1).isLt
  have h2 : (i 2).val < 128 := (i 2).isLt
  refine ⟨⟨4 * (i 0).val + 3, lt_N (by omega)⟩, (flush0_3 _).mpr (by show (4 * (i 0).val + 3) % 4 = 3; omega), ?_⟩
  obtain ⟨-, -, -, -, -, -, -, -, -, e0, e1, e2, -⟩ := idx_facts ⟨4 * (i 0).val + 3, lt_N (by omega)⟩
  have e0' : win0_3.index ⟨4 * (i 0).val + 3, lt_N (by omega)⟩ (0 : Fin 3) = (4 * (i 0).val + 3) / 4 := e0
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 8 ≤ (i 1).val ∧ (i 1).val < win0_3.index _ (1 : Fin 3) * 8 + 8; omega
  | ⟨2, _⟩ => show win0_3.index _ (2 : Fin 3) * 128 ≤ (i 2).val ∧ (i 2).val < win0_3.index _ (2 : Fin 3) * 128 + 128; omega

/-- The first result array after the run. -/
theorem final2 (c : Dev nD) : (dats m 0 c).arrAt 2 cfg0.N = Acc.yyArr (xin m c) :=
  (dats m 0 c).arrAt_eq_of_cover 2 (Acc.yyArr (xin m c)) (fun t hf => flushed2_eq m c t hf) cover2

/-- The second result array after the run. -/
theorem final3 (c : Dev nD) : (dats m 0 c).arrAt 3 cfg0.N = Acc.xyArr (xin m c) :=
  (dats m 0 c).arrAt_eq_of_cover 3 (Acc.xyArr (xin m c)) (fun t hf => flushed3_eq m c t hf) cover3

end Cert.KernelIdeal.Fr

end
-- ==== Proof.Launch.lean ====
import proofs.«141074_j60129542698_2_alg».proof.Proof.Dats
import proofs.«141074_j60129542698_2_alg».proof.Proof.Acc
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
# The run of @main from the kernel body's obligation

@main is one pipelined kernel region followed by seventeen host lines.  The region's two input windows stage the SAME
array, so at the region's entry that array's points-to is split into two half shares, one per window; the two output
windows hold their result arrays whole.  At the region's exit the two halves come back unchanged (an input window
never writes), and the host lines — which read the two result arrays and write only fresh buffers, never the input
array — run within the result arrays and the buffers that bypass the region, the two halves set aside.  The final
memory then holds the closing arithmetic on the two result arrays in the program's result buffer, and the input array
as launched.
-/

theorem hostOps1_fresh : (hostOps1 : List (HloOp τ sig (Elt F))).Forall fun op => op.fresh = ∅ := by
  simp only [List.Forall]; repeat' constructor

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The pipeline's arrays at contents `G`, window by window: the input array's two halves, the two result arrays whole. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0_0) ↦{fullShare} G 2) ∗ (((c.tc : Thread nD τ).loc main_v0_1) ↦{fullShare} G 3)) := by
  unfold Dat.arrays
  rw [bigSep_W0, share0, share1, share2, share3, (arr_whole0 0).set_eq_univ, (arr_whole0 2).set_eq_univ, (arr_whole0 3).set_eq_univ]

/-- At the region's entry the three buffers behind the arrays, each whole, make the pipeline's arrays: the input array's
    points-to is split into the two halves its two windows hold. -/
theorem hsplit (c : Dev nD) : (Pipeline.arrBufs spec0 c (V m c) : sProp 𝕄) ⊢ (dats m 0 c).arrays ((dats m 0 c).arrAt · 0) := by
  rw [arrays_chain]
  unfold Pipeline.arrBufs
  rw [bigSep_eq_bigSepL_of_eq [main_arg0, main_v0_0, main_v0_1] (by decide) (by decide)]
  show iprop((((c.tc : Thread nD τ).loc main_arg0) ↦{fullShare} V m c main_arg0) ∗ (((c.tc : Thread nD τ).loc main_v0_0) ↦{fullShare} V m c main_v0_0)
      ∗ (((c.tc : Thread nD τ).loc main_v0_1) ↦{fullShare} V m c main_v0_1))
    ⊢ iprop((((c.tc : Thread nD τ).loc main_arg0) ↦{fullShare.left} V m c main_arg0) ∗ (((c.tc : Thread nD τ).loc main_arg0) ↦{fullShare.right} V m c main_arg0)
          ∗ (((c.tc : Thread nD τ).loc main_v0_0) ↦{fullShare} V m c main_v0_0) ∗ (((c.tc : Thread nD τ).loc main_v0_1) ↦{fullShare} V m c main_v0_1))
  iintro ⟨H0, H2, H3⟩
  ihave H0 := (pointsTo_share (PosShare.mem_left_op_right fullShare)).1 $$ H0
  icases H0 with ⟨H0, H1⟩
  isplitl [H0]; · iexact H0
  isplitl [H1]; · iexact H1
  isplitl [H2]; · iexact H2
  iexact H3

/-! ## The lines after the region -/

/-- The references the lines after the region run within: the two result arrays and the buffers that bypass the region. -/
def tailSet : Finset (Ref sig .tc) := insert main_v0_0 (insert main_v0_1 (Pipeline.restRefs sig spec0))

/-- The same as device buffers. -/
def tailS : Finset (DevRef τ sig) := tailSet.map ⟨Proc.devRef (sig := sig) (.tc : Proc τ), Proc.devRef_injective _⟩

theorem mem_tailS {r : Ref sig .tc} (h : r ∈ tailSet) : Proc.devRef (τ := τ) .tc r ∈ tailS := Finset.mem_map_of_mem _ h

theorem nullary_sub {y : Ref sig .tc} (v : y.ty.Contents (Elt F)) (hy) (h : y ∈ tailSet) :
    (StableHlo.nullary (τ := τ) y v hy).bufs ⊆ tailS := by
  rw [StableHlo.nullary_bufs]; exact Finset.singleton_subset_iff.mpr (mem_tailS h)

theorem unary_sub {x y : Ref sig .tc} (f : x.ty.Contents (Elt F) → y.ty.Contents (Elt F)) (hx hy) (h₁ : x ∈ tailSet) (h₂ : y ∈ tailSet) :
    (StableHlo.unary (τ := τ) x y f hx hy).bufs ⊆ tailS := by
  rw [StableHlo.unary_bufs]; exact Finset.insert_subset (mem_tailS h₁) (Finset.singleton_subset_iff.mpr (mem_tailS h₂))

theorem reshape_sub {x y : Ref sig .tc} (he hn hx hy) (h₁ : x ∈ tailSet) (h₂ : y ∈ tailSet) :
    (StableHlo.reshape (τ := τ) (Val := Elt F) x y he hn hx hy).bufs ⊆ tailS := by
  rw [StableHlo.reshape_bufs]; exact Finset.insert_subset (mem_tailS h₁) (Finset.singleton_subset_iff.mpr (mem_tailS h₂))

theorem binary_sub {a b y : Ref sig .tc} (f : a.ty.Contents (Elt F) → b.ty.Contents (Elt F) → y.ty.Contents (Elt F)) (ha hb hy)
    (h₁ : a ∈ tailSet) (h₂ : b ∈ tailSet) (h₃ : y ∈ tailSet) :
    (StableHlo.binary (τ := τ) a b y f ha hb hy).bufs ⊆ tailS := by
  rw [StableHlo.binary_bufs]
  exact Finset.insert_subset (mem_tailS h₁) (Finset.insert_subset (mem_tailS h₂) (Finset.singleton_subset_iff.mpr (mem_tailS h₃)))

/-- Every line after the region touches only those buffers: never the input array. -/
theorem tail_sub : (hostOps1 : List (HloOp τ sig (Elt F))).Forall fun op => op.bufs ⊆ tailS :=
  ⟨unary_sub _ _ _ (by decide) (by decide), reshape_sub _ _ _ _ (by decide) (by decide),
   unary_sub _ _ _ (by decide) (by decide), reshape_sub _ _ _ _ (by decide) (by decide),
   nullary_sub _ _ (by decide), unary_sub _ _ _ (by decide) (by decide), binary_sub _ _ _ _ (by decide) (by decide) (by decide),
   nullary_sub _ _ (by decide), unary_sub _ _ _ (by decide) (by decide), binary_sub _ _ _ _ (by decide) (by decide) (by decide),
   nullary_sub _ _ (by decide), unary_sub _ _ _ (by decide) (by decide), binary_sub _ _ _ _ (by decide) (by decide) (by decide),
   nullary_sub _ _ (by decide), unary_sub _ _ _ (by decide) (by decide), binary_sub _ _ _ _ (by decide) (by decide) (by decide),
   binary_sub _ _ _ _ (by decide) (by decide) (by decide)⟩

/-- Core `c`'s buffers when the region is left: the two result arrays as the pipeline's write-backs leave them, every
    other buffer as launched. -/
def Wx (c : Dev nD) : Valuation τ sig (Elt F) :=
  Function.update (Function.update (fun b => m (c, b)) (Proc.devRef .tc main_v0_0) ((dats m 0 c).arrAt 2 cfg0.N))
    (Proc.devRef .tc main_v0_1) ((dats m 0 c).arrAt 3 cfg0.N)

theorem Wx_v0_0 (c : Dev nD) : Wx m c (Proc.devRef .tc main_v0_0) = (dats m 0 c).arrAt 2 cfg0.N := by
  unfold Wx; rw [Function.update_of_ne (StableHlo.devRef_ne_of_ne (by decide)), Function.update_self]

theorem Wx_v0_1 (c : Dev nD) : Wx m c (Proc.devRef .tc main_v0_1) = (dats m 0 c).arrAt 3 cfg0.N := by
  unfold Wx; rw [Function.update_self]

theorem Wx_rest (c : Dev nD) {b : Ref sig .tc} (h0 : b ≠ main_v0_0) (h1 : b ≠ main_v0_1) :
    Wx m c (Proc.devRef .tc b) = m (c, Proc.devRef .tc b) := by
  unfold Wx; rw [Function.update_of_ne (StableHlo.devRef_ne_of_ne h1), Function.update_of_ne (StableHlo.devRef_ne_of_ne h0)]

/-- Those buffers held at a valuation: the two result arrays, then the bypassing buffers. -/
theorem held_tail (c : Dev nD) (W : Valuation τ sig (Elt F)) :
    (StableHlo.held (c.tc : Thread nD τ) tailS W : sProp 𝕄)
      = iprop((((c.tc : Thread nD τ).loc main_v0_0) ↦{fullShare} W (Proc.devRef .tc main_v0_0))
          ∗ (((c.tc : Thread nD τ).loc main_v0_1) ↦{fullShare} W (Proc.devRef .tc main_v0_1))
          ∗ Pipeline.unscopedRest spec0 c (fun b => W (Proc.devRef .tc b))) := by
  unfold StableHlo.held tailS tailSet Pipeline.unscopedRest
  rw [bigSep_map, bigSep_insert (by decide), bigSep_insert (by decide)]
  rfl

theorem Wx_restV (c : Dev nD) {b : Ref sig .tc} (h0 : b ≠ main_v0_0) (h1 : b ≠ main_v0_1) :
    Wx m c (Proc.devRef .tc b) = V m c b := Wx_rest m c h0 h1

/-- The lines after the region leave the two result arrays as they find them. -/
theorem after_v0_0 (c : Dev nD) : StableHlo.after hostOps1 (Wx m c) (Proc.devRef .tc main_v0_0) = (dats m 0 c).arrAt 2 cfg0.N := by
  unfold hostOps1
  after_results
  exact Wx_v0_0 m c

theorem after_v0_1 (c : Dev nD) : StableHlo.after hostOps1 (Wx m c) (Proc.devRef .tc main_v0_1) = (dats m 0 c).arrAt 3 cfg0.N := by
  unfold hostOps1
  after_results
  exact Wx_v0_1 m c

/-- What they leave in the program's result buffer: the closing arithmetic on the two result arrays. -/
theorem after_v13 (c : Dev nD) : StableHlo.after hostOps1 (Wx m c) (Proc.devRef .tc main_v13)
    = Acc.tail ((dats m 0 c).arrAt 2 cfg0.N) ((dats m 0 c).arrAt 3 cfg0.N) := by
  unfold hostOps1
  after_results
  rw [Wx_v0_0, Wx_v0_1]
  rfl

/-- The bypassing buffers at the region's exit hold what they were launched with. -/
theorem rest_Wx (c : Dev nD) :
    (Pipeline.unscopedRest spec0 c (fun b => Wx m c (Proc.devRef .tc b)) : sProp 𝕄) = Pipeline.unscopedRest spec0 c (V m c) := by
  unfold Pipeline.unscopedRest
  exact bigSep_congr fun b hb => by
    beta_reduce
    rw [Wx_restV m c (fun e => (Finset.mem_sdiff.mp hb).2 (Finset.mem_image.mpr ⟨2, Finset.mem_univ _, e.symm⟩))
      (fun e => (Finset.mem_sdiff.mp hb).2 (Finset.mem_image.mpr ⟨3, Finset.mem_univ _, e.symm⟩))]

/-- The bypassing buffers after the lines. -/
def Zend (c : Dev nD) : sProp 𝕄 :=
  Pipeline.unscopedRest spec0 c (fun b => StableHlo.after hostOps1 (Wx m c) (Proc.devRef .tc b))

/-- What the lines run within, at the region's exit: the result arrays as the pipeline left them, the rest as launched. -/
theorem held_exit (c : Dev nD) : (StableHlo.held (c.tc : Thread nD τ) tailS (Wx m c) : sProp 𝕄)
    = iprop((((c.tc : Thread nD τ).loc main_v0_0) ↦{fullShare} (dats m 0 c).arrAt 2 cfg0.N)
        ∗ (((c.tc : Thread nD τ).loc main_v0_1) ↦{fullShare} (dats m 0 c).arrAt 3 cfg0.N)
        ∗ Pipeline.unscopedRest spec0 c (V m c)) := by
  rw [held_tail, Wx_v0_0, Wx_v0_1, rest_Wx]

/-- And after the lines: the result arrays unchanged, the rest at the lines' results. -/
theorem held_end (c : Dev nD) : (StableHlo.held (c.tc : Thread nD τ) tailS (StableHlo.after hostOps1 (Wx m c)) : sProp 𝕄)
    = iprop((((c.tc : Thread nD τ).loc main_v0_0) ↦{fullShare} (dats m 0 c).arrAt 2 cfg0.N)
        ∗ (((c.tc : Thread nD τ).loc main_v0_1) ↦{fullShare} (dats m 0 c).arrAt 3 cfg0.N)
        ∗ Zend m c) := by
  rw [held_tail, after_v0_0, after_v0_1]; rfl

set_option backward.isDefEq.respectTransparency.types false in
/-- THE LINES AFTER THE REGION: from the region's exit — the boundary, the pipeline's arrays, the bypassing buffers as
    launched — the seventeen lines run within the two result arrays and the bypassing buffers, the two halves of the input
    array set aside, and hand back the arrays and the bypassing buffers at the lines' results. -/
theorem htail (𝒱₀ : Variants) (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  rw [arrays_chain, Pipeline.chain_cons]
  iintro ⟨Hk, Hb, ⟨H0, H1, H2, H3⟩, HZ⟩
  ihave Hh := (Entails.of_eq (held_exit m c).symm) $$ [H2 H3 HZ]
  · isplitl [H2]; · iexact H2
    isplitl [H3]; · iexact H3
    iexact HZ
  iapply (StableHlo.wp_seq (Variants.lift 𝒱₀) none Set.univ c tailS _ hostOps1 (List.forall_iff_forall_mem.mp tail_sub)
    (List.forall_iff_forall_mem.mp hostOps1_fresh) (Wx m c)) $$ [Hb Hh]
  · isplitl [Hb]; · iexact Hb
    iexact Hh
  iintro ⟨Hb, Hh⟩
  rw [Pipeline.chain_nil, wp_pure]
  imodintro
  iapply Hk
  ihave Hh := (Entails.of_eq (held_end m c)) $$ Hh
  icases Hh with ⟨H2, H3, HZ⟩
  isplitr [HZ]
  · isplitl [H0]; · iexact H0
    isplitl [H1]; · iexact H1
    isplitl [H2]; · iexact H2
    iexact H3
  iexact HZ

/-- The final memory holds the lines' result in the program's result buffer. -/
theorem hY (c : Dev nD) (s' : Phys nD τ sig (Elt F)) :
    iprop((∃ r, prngReg c r) ∗ Zend m c ∗ SI s')
      ⊢ |={Set.univ}=> iprop(⌜s'.mem.mem ((c.tc : Thread nD τ).loc main_v13)
            = Acc.tail ((dats m 0 c).arrAt 2 cfg0.N) ((dats m 0 c).arrAt 3 cfg0.N)⌝ ∗ SI s') := by
  unfold Zend Pipeline.unscopedRest
  iintro ⟨-, HU, HSI⟩
  imodintro
  ihave H := (pointsTo_read_all (Pipeline.restRefs sig spec0) (fun b => (c.tc : Thread nD τ).loc b)
    (fun b => StableHlo.after hostOps1 (Wx m c) (Proc.devRef .tc b)) s') $$ [HU HSI]
  · isplitl [HU] <;> iassumption
  icases H with ⟨%h, HSI⟩
  isplitr
  · ipureintro; exact (h main_v13 (by decide)).trans (after_v13 m c)
  iexact HSI

/-! ## The run of @main -/

/-- @main is the kernel region continued by the seventeen lines (`Gen.main_chain`). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

set_option backward.isDefEq.respectTransparency.types false in
/-- From any memory with zero counters every weakly fair execution of @main terminates, and in every final state the
    program's result buffer holds the closing arithmetic on the two result arrays as the pipeline's write-backs leave
    them, and the input array is as launched — given the kernel body's obligation at every grid point. -/
theorem run_main (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v13) = Acc.tail ((dats m 0 c).arrAt 2 cfg0.N) ((dats m 0 c).arrAt 3 cfg0.N)
      ∧ r.2.mem ((c.tc : Thread nD τ).loc main_arg0) = m ((c.tc : Thread nD τ).loc main_arg0)) :=
  Pipeline.θ_run_region_pf_tail (fun p => (cfgs p).toPCfg) (fun p => (cfgs p).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := Zend m)
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m Variants.none)
    (QY := fun c s => s.mem ((c.tc : Thread nD τ).loc main_v13) = Acc.tail ((dats m 0 c).arrAt 2 cfg0.N) ((dats m 0 c).arrAt 3 cfg0.N))
    (hY := hY m)
    (hQ := fun s h c => ⟨(h c).2.2, ((h c).1 0).trans (((dats m 0 c).arrAt_in 0 rfl _).trans rfl)⟩)

end Cert.KernelIdeal.Fr

end
-- ==== Proof.KDats.lean ====
import proofs.«141074_j60129542698_2_alg».proof.Proof.Gen.Kernel.Launch
import proofs.«141074_j60129542698_2_alg».proof.Proof.Gen.Kernel.Skeleton
import proofs.«141074_j60129542698_2_alg».proof.Proof.Gen.Kernel.Points
import Idealize.ShloMosaic.Lib.Pipeline.FrameBody
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-!
# What the pipeline's staging buffers hold, point by point

Grid point `t` has coordinates `(b, i)`.  Window 0 stages rows `512·i …` of batch `b`, window 1 all rows of
batch `b`, windows 2 and 3 the two accumulator blocks of batch `b`.  The body leaves the input blocks as they
are; into each accumulator it stores the previous contents (zero when `i = 0`) plus this point's partial sum.
-/

variable (m : (ℓ : Loc nD τ sig) → Buf (Elt F) ℓ) (ρ : Dev nD → PrngReg)

/-- Core `c`'s buffers when the kernel region is entered: as launched (the region is the program's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The two accumulator blocks after the body at point `n`: this point's partial sums added to zero at the first
    point of a batch (`n ≡ 0 mod 4`), and to what the point before left otherwise. -/
def outs (c : Dev nD) : (n : ℕ) → n < cfg0.N → Vec F S1x8x128 .f32 × Vec F S1x8x128 .f32
  | 0, hn =>
    (k0_pay1 (k0_pay7 (grid0.coords ⟨0, hn⟩) (iblk m c 0 ⟨0, hn⟩) (iblk m c 1 ⟨0, hn⟩)) (k0_pay3 (F := F)),
     k0_pay2 (k0_pay6 (iblk m c 0 ⟨0, hn⟩)) (k0_pay4 (F := F)))
  | n + 1, hn =>
    if (n + 1) % 4 = 0 then
      (k0_pay1 (k0_pay7 (grid0.coords ⟨n + 1, hn⟩) (iblk m c 0 ⟨n + 1, hn⟩) (iblk m c 1 ⟨n + 1, hn⟩)) (k0_pay3 (F := F)),
       k0_pay2 (k0_pay6 (iblk m c 0 ⟨n + 1, hn⟩)) (k0_pay4 (F := F)))
    else
      (k0_pay1 (k0_pay7 (grid0.coords ⟨n + 1, hn⟩) (iblk m c 0 ⟨n + 1, hn⟩) (iblk m c 1 ⟨n + 1, hn⟩)) (outs c n (Nat.lt_of_succ_lt hn)).1,
       k0_pay2 (k0_pay6 (iblk m c 0 ⟨n + 1, hn⟩)) (outs c n (Nat.lt_of_succ_lt hn)).2)

/-- At the first point of a batch the accumulators start from zero. -/
theorem outs_first (c : Dev nD) (t : Fin cfg0.N) (h0 : t.val % 4 = 0) :
    outs m c t.val t.isLt =
      (k0_pay1 (k0_pay7 (grid0.coords t) (iblk m c 0 t) (iblk m c 1 t)) (k0_pay3 (F := F)),
       k0_pay2 (k0_pay6 (iblk m c 0 t)) (k0_pay4 (F := F))) := by
  obtain ⟨n, hn⟩ := t
  cases n with
  | zero => rfl
  | succ n => exact (if_pos h0).trans rfl

/-- At a later point of a batch they continue from the point before. -/
theorem outs_later (c : Dev nD) (t : Fin cfg0.N) (h0 : ¬ t.val % 4 = 0) :
    outs m c t.val t.isLt =
      (k0_pay1 (k0_pay7 (grid0.coords t) (iblk m c 0 t) (iblk m c 1 t)) (outs m c (t.val - 1) (Nat.lt_of_le_of_lt (Nat.sub_le _ _) t.isLt)).1,
       k0_pay2 (k0_pay6 (iblk m c 0 t)) (outs m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The pipeline's proof data on core `c`: the arrays as the region finds them; after the body each input's buffer
    at its block and the accumulators' at `outs`; the two input windows read ONE array, each holding half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outs m c t.val t.isLt).1 := by dsimp only [dats]
theorem after0_3 (c : Dev nD) (t : Fin cfg0.N) : (dats m 0 c).after 3 t = (outs m c t.val t.isLt).2 := by dsimp only [dats]

end Cert.Kernel.Fr

end
-- ==== Proof.KBody.lean ====
import proofs.«141074_j60129542698_2_alg».proof.Proof.Gen.Kernel.Launch
import proofs.«141074_j60129542698_2_alg».proof.Proof.Gen.Kernel.Skeleton
import proofs.«141074_j60129542698_2_alg».proof.Proof.Gen.Kernel.Points
import Idealize.ShloMosaic.Lib.Pipeline.FrameBody
import Idealize.ShloMosaic.Lib.Tactic
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-!
# The kernel body as a triple

The body is run symbolically on whole staging buffers.  Its stores are whole-block stores, so each accumulator
ends at the last store's value: the body's arithmetic (the named payloads) of the two input blocks and of the
accumulator's contents before the store.
-/

/-- The body's branch condition: the second grid coordinate is zero (the first point of a batch). -/
abbrev isFirst (i : grid0.Coords) : Prop := (Scalar.cmpi .ne (Scalar.extui (Scalar.cmpi .eq (BitVec.ofNat 32 (i 1).val) 0#32)) 0#32) = 1#1

theorem hz3 : (![0, 0, 0] : Fin 3 → Nat) = fun _ => 0 := by
  funext a; match a with | ⟨0, _⟩ => rfl | ⟨1, _⟩ => rfl | ⟨2, _⟩ => rfl

set_option maxHeartbeats 1000000 in
/-- The body at the first point of a batch, on whole staging buffers holding the two input blocks: it zeroes both
    accumulators, loads the blocks, and stores into each accumulator zero plus this point's partial sum; the input
    buffers are left as they were. -/
theorem runFirst (c : Dev nD) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S1x8x128 .f32) (harg4 : arg4.IsWhole) (arg5 : Memref sig .tc .vmem S1x8x128 .f32) (harg5 : arg5.IsWhole)
    (hc : isFirst i) (x0 : Vec F S1x512x64 .f32) (x1 : Vec F S1x2048x64 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay1 (k0_pay7 i x0 x1) (k0_pay3 (F := F)))
            ∗ owns (c : Thread nD τ) arg5 fullShare (k0_pay2 (k0_pay6 x0) (k0_pay4 (F := F)))) -∗ K ⟨⟩))
      ⊢ wp frame (wpE (defs₀ (F := F)) Variants.none c none) E (cc0__mmd_kernel i arg2 harg2 arg3 harg3 arg4 harg4 arg5 harg5) K := by
  simp only [cc0__mmd_kernel_eq_skeleton]; unfold cc0__mmd_kernel_skel
  simp only [k0_part1_eq_skeleton]
  unfold owns
  iintro ⟨⟨%f0, %hf0, H0⟩, ⟨%f1, %hf1, H1⟩, ⟨%d4, %f4, -, H4⟩, ⟨%d5, %f5, -, H5⟩, Hk⟩
  obtain rfl := harg2.eq_unread hf0
  obtain rfl := harg3.eq_unread hf1
  sl_exec (disch := first | exact hc)
  sl_step
  have e2 : View.readAt (Elt F) arg2.view (Rect.unit ![0, 0, 0] S1x512x64.size inb_S1x512x64_S1x512x64_0_0_0).toLoadRect (harg2.unread x0) = x0 := by
    rw [View.readAt_eq_ld, harg2.read_unread, View.ld_unit_zero (S := S1x512x64) hz3]
  have e3 : View.readAt (Elt F) arg3.view (Rect.unit ![0, 0, 0] S1x2048x64.size inb_S1x2048x64_S1x2048x64_0_0_0).toLoadRect (harg3.unread x1) = x1 := by
    rw [View.readAt_eq_ld, harg3.read_unread, View.ld_unit_zero (S := S1x2048x64) hz3]
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    refine (View.read_writes_eq_canon _ _ _ (fun y => ⟨_, List.mem_cons_self, View.mem_set_unit_zero (S := S1x8x128) hz3 inb_S1x8x128_S1x8x128_0_0_0 y⟩)).trans ?_
    rw [View.canon_cons_unit_zero (S := S1x8x128) hz3]
    sl_unfold_run_names
    exact congrArg₂ k0_pay1 (congrArg₂ (k0_pay7 i) e2 e3) (View.readCov_unit_zero (S := S1x8x128) _ hz3 _ _)
  · iexists _; isplitr
    swap; · iexact H5
    ipureintro
    refine (View.read_writes_eq_canon _ _ _ (fun y => ⟨_, List.mem_cons_self, View.mem_set_unit_zero (S := S1x8x128) hz3 inb_S1x8x128_S1x8x128_0_0_0 y⟩)).trans ?_
    rw [View.canon_cons_unit_zero (S := S1x8x128) hz3]
    sl_unfold_run_names
    exact congrArg₂ k0_pay2 (congrArg k0_pay6 e2) (View.readCov_unit_zero (S := S1x8x128) _ hz3 _ _)

set_option maxHeartbeats 1000000 in
/-- The body at a later point of a batch: the accumulators hold what the point before left (`a4`, `a5`) and each is
    stored back with this point's partial sum added. -/
theorem runLater (c : Dev nD) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S1x8x128 .f32) (harg4 : arg4.IsWhole) (arg5 : Memref sig .tc .vmem S1x8x128 .f32) (harg5 : arg5.IsWhole)
    (hc : ¬ isFirst i) (x0 : Vec F S1x512x64 .f32) (x1 : Vec F S1x2048x64 .f32) (a4 a5 : Vec F S1x8x128 .f32) (E : Set ℕ) (K : PUnit → sProp 𝕄) :
    iprop(owns (c : Thread nD τ) arg2 fullShare x0 ∗ owns (c : Thread nD τ) arg3 fullShare x1
        ∗ owns (c : Thread nD τ) arg4 fullShare a4 ∗ owns (c : Thread nD τ) arg5 fullShare a5
        ∗ (iprop(owns (c : Thread nD τ) arg2 fullShare x0 ∗ owns (c : Thread nD τ) arg3 fullShare x1
            ∗ owns (c : Thread nD τ) arg4 fullShare (k0_pay1 (k0_pay7 i x0 x1) a4)
            ∗ owns (c : Thread nD τ) arg5 fullShare (k0_pay2 (k0_pay6 x0) a5)) -∗ K ⟨⟩))
      ⊢ wp frame (wpE (defs₀ (F := F)) Variants.none c none) E (cc0__mmd_kernel i arg2 harg2 arg3 harg3 arg4 harg4 arg5 harg5) K := by
  simp only [cc0__mmd_kernel_eq_skeleton]; unfold cc0__mmd_kernel_skel
  simp only [k0_part1_eq_skeleton]
  unfold owns
  iintro ⟨⟨%f0, %hf0, H0⟩, ⟨%f1, %hf1, H1⟩, ⟨%f4, %hf4, H4⟩, ⟨%f5, %hf5, H5⟩, Hk⟩
  obtain rfl := harg2.eq_unread hf0
  obtain rfl := harg3.eq_unread hf1
  obtain rfl := harg4.eq_unread hf4
  obtain rfl := harg5.eq_unread hf5
  sl_exec (disch := first | exact hc)
  sl_step
  have e2 : View.readAt (Elt F) arg2.view (Rect.unit ![0, 0, 0] S1x512x64.size inb_S1x512x64_S1x512x64_0_0_0).toLoadRect (harg2.unread x0) = x0 := by
    rw [View.readAt_eq_ld, harg2.read_unread, View.ld_unit_zero (S := S1x512x64) hz3]
  have e3 : View.readAt (Elt F) arg3.view (Rect.unit ![0, 0, 0] S1x2048x64.size inb_S1x2048x64_S1x2048x64_0_0_0).toLoadRect (harg3.unread x1) = x1 := by
    rw [View.readAt_eq_ld, harg3.read_unread, View.ld_unit_zero (S := S1x2048x64) hz3]
  have e4 : View.readAt (Elt F) arg4.view (Rect.unit ![0, 0, 0] S1x8x128.size inb_S1x8x128_S1x8x128_0_0_0).toLoadRect (harg4.unread a4) = a4 := by
    rw [View.readAt_eq_ld, harg4.read_unread, View.ld_unit_zero (S := S1x8x128) hz3]
  have e5 : View.readAt (Elt F) arg5.view (Rect.unit ![0, 0, 0] S1x8x128.size inb_S1x8x128_S1x8x128_0_0_0).toLoadRect (harg5.unread a5) = a5 := by
    rw [View.readAt_eq_ld, harg5.read_unread, View.ld_unit_zero (S := S1x8x128) hz3]
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    refine (View.read_writes_eq_canon _ _ _ (fun y => ⟨_, List.mem_cons_self, View.mem_set_unit_zero (S := S1x8x128) hz3 inb_S1x8x128_S1x8x128_0_0_0 y⟩)).trans ?_
    rw [View.canon_cons_unit_zero (S := S1x8x128) hz3]
    sl_unfold_run_names
    exact congrArg₂ k0_pay1 (congrArg₂ (k0_pay7 i) e2 e3) e4
  · iexists _; isplitr
    swap; · iexact H5
    ipureintro
    refine (View.read_writes_eq_canon _ _ _ (fun y => ⟨_, List.mem_cons_self, View.mem_set_unit_zero (S := S1x8x128) hz3 inb_S1x8x128_S1x8x128_0_0_0 y⟩)).trans ?_
    rw [View.canon_cons_unit_zero (S := S1x8x128) hz3]
    sl_unfold_run_names
    exact congrArg₂ k0_pay2 (congrArg k0_pay6 e2) e5

end Cert.Kernel.Body

end
-- ==== Proof.KOblig.lean ====
import proofs.«141074_j60129542698_2_alg».proof.Proof.KDats
import proofs.«141074_j60129542698_2_alg».proof.Proof.KBody
import Idealize.ShloMosaic.Lib.Pipeline.FrameBody
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-!
# The body obligation

At every grid point the body, handed each window's current staging buffer at what the pipeline left there,
returns the input buffers unchanged and the two accumulators at `outs`.  The input buffers hold their blocks
whether or not they were fetched at this point (window 1's block index moves only with the batch).  The
accumulators' buffers are fresh at the first point of a batch — the point before wrote them back — and hold
what the point before left at the other three points.
-/

variable (m : (ℓ : Loc nD τ sig) → Buf (Elt F) ℓ) (ρ : Dev nD → PrngReg)

/-- The branch condition holds exactly at the points `≡ 0 (mod 4)`. -/
theorem first_iff : ∀ t : Fin cfg0.N, Body.isFirst (grid0.coords t) ↔ t.val % 4 = 0 :=
  (by decide +kernel : ∀ t : Fin grid0.N, Body.isFirst (grid0.coords t) ↔ t.val % 4 = 0)

/-- Window 0's buffer holds the row block at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Window 1's buffer holds the batch's column block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-- Away from the first point of a batch the first accumulator's buffer holds what the point before left: the
    pipeline writes it back only after the batch's fourth point. -/
theorem before0_2_later (c : Dev nD) (t : Fin cfg0.N) (h0 : ¬ t.val % 4 = 0) (d) :
    (dats m 0 c).before 2 t d = (outs m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- The same for the second accumulator. -/
theorem before0_3_later (c : Dev nD) (t : Fin cfg0.N) (h0 : ¬ t.val % 4 = 0) (d) :
    (dats m 0 c).before 3 t d = (outs m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: by cases on whether the point is the first of its batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [outs_first m c t h0]
    iintro ⟨HΦ, Ho, ⟨%d0, H0⟩, ⟨%d1, H1⟩, ⟨%d2, H2⟩, ⟨%d3, H3⟩⟩
    iapply (Body.runFirst c (grid0.coords t) _ _ _ _ _ _ _ _ ((first_iff t).mpr h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outs_later m c t h0]
    simp only [before0_2_later m c t h0, before0_3_later m c t h0]
    iintro ⟨HΦ, Ho, ⟨%d0, H0⟩, ⟨%d1, H1⟩, ⟨%d2, H2⟩, ⟨%d3, H3⟩⟩
    iapply (Body.runLater c (grid0.coords t) _ _ _ _ _ _ _ _ (fun h => h0 ((first_iff t).mp h)) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KAcc.lean ====
import proofs.«141074_j60129542698_2_alg».proof.Proof.Gen.Kernel.Skeleton
import Idealize.ShloMosaic.Lib.ValueIdx

/-!
# The kernel's results as functions of the input array

The kernel walks a 32 × 4 grid.  At grid point `(b, i)` it reads rows `512·i … 512·i+511` of batch `b`
(the row block) and all 2048 rows of batch `b` (the column block), and adds one partial sum to each of two
8 × 128 accumulator blocks of batch `b`; at `i = 0` the accumulators are first set to zero.  Here the two
accumulators after step `i` are written as a recursion over the body's arithmetic, and the two result arrays
and the closing host arithmetic as functions of the whole input array.
-/

noncomputable section

namespace Cert.Kernel.Acc

open Idealize.ShloMosaic Idealize.ShloMosaic.ValueIdx Cert.Kernel Cert.Kernel.Gen

variable {F : FTy → Type} [FloatOps F]

/-- Rows `512·i … 512·i+511` of batch `b`. -/
def rowBlk (x : Vec F S32x2048x64 .f32) (b : Fin 32) (i : Fin 4) : Vec F S1x512x64 .f32 :=
  fun y => x (ix3 b ⟨512 * i.val + (y 1).val, by have h1 : (y 1).val < 512 := (y 1).isLt; have := i.isLt; show _ < 2048; omega⟩ ⟨(y 2).val, (y 2).isLt⟩)

/-- All rows of batch `b`. -/
def colBlk (x : Vec F S32x2048x64 .f32) (b : Fin 32) : Vec F S1x2048x64 .f32 :=
  fun y => x (ix3 b ⟨(y 1).val, (y 1).isLt⟩ ⟨(y 2).val, (y 2).isLt⟩)

/-- The grid point `(b, i)`. -/
def pt (b : Fin 32) (i : Fin 4) : grid0.Coords := fun a => match a with
  | ⟨0, _⟩ => b
  | ⟨1, _⟩ => i

/-- Step `i` of batch `b` adds to the first accumulator the sum over the row block's rows and all columns of the
    masked exponentials. -/
def stepYY (x : Vec F S32x2048x64 .f32) (b : Fin 32) (i : Fin 4) (prev : Vec F S1x8x128 .f32) : Vec F S1x8x128 .f32 :=
  k0_pay1 (k0_pay7 (pt b i) (rowBlk x b i) (colBlk x b)) prev

/-- Step `i` of batch `b` adds to the second accumulator the sum over the row block's rows of `exp (-‖row‖² / 4)`. -/
def stepXY (x : Vec F S32x2048x64 .f32) (b : Fin 32) (i : Fin 4) (prev : Vec F S1x8x128 .f32) : Vec F S1x8x128 .f32 :=
  k0_pay2 (k0_pay6 (rowBlk x b i)) prev

/-- The first accumulator of batch `b` after steps `0 … n` (`n ≤ 3`), from zero. -/
def accYY (x : Vec F S32x2048x64 .f32) (b : Fin 32) : ℕ → Vec F S1x8x128 .f32
  | 0 => stepYY x b 0 (k0_pay3 (F := F))
  | n + 1 => stepYY x b ⟨(n + 1) % 4, Nat.mod_lt _ (by decide)⟩ (accYY x b n)

/-- The second accumulator of batch `b` after steps `0 … n` (`n ≤ 3`), from zero. -/
def accXY (x : Vec F S32x2048x64 .f32) (b : Fin 32) : ℕ → Vec F S1x8x128 .f32
  | 0 => stepXY x b 0 (k0_pay4 (F := F))
  | n + 1 => stepXY x b ⟨(n + 1) % 4, Nat.mod_lt _ (by decide)⟩ (accXY x b n)

/-- The first result array: batch `b`'s block is its accumulator after the fourth step. -/
def yyArr (x : Vec F S32x2048x64 .f32) : Vec F S32x8x128 .f32 :=
  fun j => accYY x ⟨(j 0).val, (j 0).isLt⟩ 3 (ix3 (0 : Fin 1) ⟨(j 1).val, (j 1).isLt⟩ ⟨(j 2).val, (j 2).isLt⟩)

/-- The second result array. -/
def xyArr (x : Vec F S32x2048x64 .f32) : Vec F S32x8x128 .f32 :=
  fun j => accXY x ⟨(j 0).val, (j 0).isLt⟩ 3 (ix3 (0 : Fin 1) ⟨(j 1).val, (j 1).isLt⟩ ⟨(j 2).val, (j 2).isLt⟩)

/-- The closing host arithmetic on the two result arrays: entry `[b, 0, 0]` of each,
    `c₀ + yy / 4192256 - (2⁻¹⁰ · xy) · 2⁻³²`. -/
def tail (yy xy : Vec F S32x8x128 .f32) : Vec F S32 .f32 :=
  subf (addf (broadcastInDim S32 ![] bcast_S_S32 (constant S_ .f32 0x261B8BD8#32))
      (Host.divf (shapeCast S32 (extractStridedSlice S32x1x1 ![0, 0, 0] yy slices_S32x8x128_S32x1x1_0_0_0) shapeCasts_S32x1x1_S32)
        (broadcastInDim S32 ![] bcast_S_S32 (constant S_ .f32 0x4A7FE000#32))))
    (mulf (mulf (broadcastInDim S32 ![] bcast_S_S32 (constant S_ .f32 0x3A800000#32))
        (shapeCast S32 (extractStridedSlice S32x1x1 ![0, 0, 0] xy slices_S32x8x128_S32x1x1_0_0_0) shapeCasts_S32x1x1_S32))
      (broadcastInDim S32 ![] bcast_S_S32 (constant S_ .f32 0x2F800000#32)))

/-- The kernel program's result as a function of its input. -/
def result (x : Vec F S32x2048x64 .f32) : Vec F S32 .f32 := tail (yyArr x) (xyArr x)

end Cert.Kernel.Acc

end
-- ==== Proof.KLaunch.lean ====
import proofs.«141074_j60129542698_2_alg».proof.Proof.KDats
import proofs.«141074_j60129542698_2_alg».proof.Proof.KAcc
import Idealize.ShloMosaic.Lib.Pipeline.FrameSuffix

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
# The run of @main from the kernel body's obligation

@main is one pipelined kernel region followed by seventeen host lines.  The region's two input windows stage the SAME
array, so at the region's entry that array's points-to is split into two half shares, one per window; the two output
windows hold their result arrays whole.  At the region's exit the two halves come back unchanged (an input window
never writes), and the host lines — which read the two result arrays and write only fresh buffers, never the input
array — run within the result arrays and the buffers that bypass the region, the two halves set aside.  The final
memory then holds the closing arithmetic on the two result arrays in the program's result buffer, and the input array
as launched.
-/

theorem hostOps1_fresh : (hostOps1 : List (HloOp τ sig (Elt F))).Forall fun op => op.fresh = ∅ := by
  simp only [List.Forall]; repeat' constructor

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The pipeline's arrays at contents `G`, window by window: the input array's two halves, the two result arrays whole. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0_0) ↦{fullShare} G 2) ∗ (((c.tc : Thread nD τ).loc main_v0_1) ↦{fullShare} G 3)) := by
  unfold Dat.arrays
  rw [bigSep_W0, share0, share1, share2, share3, (arr_whole0 0).set_eq_univ, (arr_whole0 2).set_eq_univ, (arr_whole0 3).set_eq_univ]

/-- At the region's entry the three buffers behind the arrays, each whole, make the pipeline's arrays: the input array's
    points-to is split into the two halves its two windows hold. -/
theorem hsplit (c : Dev nD) : (Pipeline.arrBufs spec0 c (V m c) : sProp 𝕄) ⊢ (dats m 0 c).arrays ((dats m 0 c).arrAt · 0) := by
  rw [arrays_chain]
  unfold Pipeline.arrBufs
  rw [bigSep_eq_bigSepL_of_eq [main_arg0, main_v0_0, main_v0_1] (by decide) (by decide)]
  show iprop((((c.tc : Thread nD τ).loc main_arg0) ↦{fullShare} V m c main_arg0) ∗ (((c.tc : Thread nD τ).loc main_v0_0) ↦{fullShare} V m c main_v0_0)
      ∗ (((c.tc : Thread nD τ).loc main_v0_1) ↦{fullShare} V m c main_v0_1))
    ⊢ iprop((((c.tc : Thread nD τ).loc main_arg0) ↦{fullShare.left} V m c main_arg0) ∗ (((c.tc : Thread nD τ).loc main_arg0) ↦{fullShare.right} V m c main_arg0)
          ∗ (((c.tc : Thread nD τ).loc main_v0_0) ↦{fullShare} V m c main_v0_0) ∗ (((c.tc : Thread nD τ).loc main_v0_1) ↦{fullShare} V m c main_v0_1))
  iintro ⟨H0, H2, H3⟩
  ihave H0 := (pointsTo_share (PosShare.mem_left_op_right fullShare)).1 $$ H0
  icases H0 with ⟨H0, H1⟩
  isplitl [H0]; · iexact H0
  isplitl [H1]; · iexact H1
  isplitl [H2]; · iexact H2
  iexact H3

/-! ## The lines after the region -/

/-- The references the lines after the region run within: the two result arrays and the buffers that bypass the region. -/
def tailSet : Finset (Ref sig .tc) := insert main_v0_0 (insert main_v0_1 (Pipeline.restRefs sig spec0))

/-- The same as device buffers. -/
def tailS : Finset (DevRef τ sig) := tailSet.map ⟨Proc.devRef (sig := sig) (.tc : Proc τ), Proc.devRef_injective _⟩

theorem mem_tailS {r : Ref sig .tc} (h : r ∈ tailSet) : Proc.devRef (τ := τ) .tc r ∈ tailS := Finset.mem_map_of_mem _ h

theorem nullary_sub {y : Ref sig .tc} (v : y.ty.Contents (Elt F)) (hy) (h : y ∈ tailSet) :
    (StableHlo.nullary (τ := τ) y v hy).bufs ⊆ tailS := by
  rw [StableHlo.nullary_bufs]; exact Finset.singleton_subset_iff.mpr (mem_tailS h)

theorem unary_sub {x y : Ref sig .tc} (f : x.ty.Contents (Elt F) → y.ty.Contents (Elt F)) (hx hy) (h₁ : x ∈ tailSet) (h₂ : y ∈ tailSet) :
    (StableHlo.unary (τ := τ) x y f hx hy).bufs ⊆ tailS := by
  rw [StableHlo.unary_bufs]; exact Finset.insert_subset (mem_tailS h₁) (Finset.singleton_subset_iff.mpr (mem_tailS h₂))

theorem reshape_sub {x y : Ref sig .tc} (he hn hx hy) (h₁ : x ∈ tailSet) (h₂ : y ∈ tailSet) :
    (StableHlo.reshape (τ := τ) (Val := Elt F) x y he hn hx hy).bufs ⊆ tailS := by
  rw [StableHlo.reshape_bufs]; exact Finset.insert_subset (mem_tailS h₁) (Finset.singleton_subset_iff.mpr (mem_tailS h₂))

theorem binary_sub {a b y : Ref sig .tc} (f : a.ty.Contents (Elt F) → b.ty.Contents (Elt F) → y.ty.Contents (Elt F)) (ha hb hy)
    (h₁ : a ∈ tailSet) (h₂ : b ∈ tailSet) (h₃ : y ∈ tailSet) :
    (StableHlo.binary (τ := τ) a b y f ha hb hy).bufs ⊆ tailS := by
  rw [StableHlo.binary_bufs]
  exact Finset.insert_subset (mem_tailS h₁) (Finset.insert_subset (mem_tailS h₂) (Finset.singleton_subset_iff.mpr (mem_tailS h₃)))

/-- Every line after the region touches only those buffers: never the input array. -/
theorem tail_sub : (hostOps1 : List (HloOp τ sig (Elt F))).Forall fun op => op.bufs ⊆ tailS :=
  ⟨unary_sub _ _ _ (by decide) (by decide), reshape_sub _ _ _ _ (by decide) (by decide),
   unary_sub _ _ _ (by decide) (by decide), reshape_sub _ _ _ _ (by decide) (by decide),
   nullary_sub _ _ (by decide), unary_sub _ _ _ (by decide) (by decide), binary_sub _ _ _ _ (by decide) (by decide) (by decide),
   nullary_sub _ _ (by decide), unary_sub _ _ _ (by decide) (by decide), binary_sub _ _ _ _ (by decide) (by decide) (by decide),
   nullary_sub _ _ (by decide), unary_sub _ _ _ (by decide) (by decide), binary_sub _ _ _ _ (by decide) (by decide) (by decide),
   nullary_sub _ _ (by decide), unary_sub _ _ _ (by decide) (by decide), binary_sub _ _ _ _ (by decide) (by decide) (by decide),
   binary_sub _ _ _ _ (by decide) (by decide) (by decide)⟩

/-- Core `c`'s buffers when the region is left: the two result arrays as the pipeline's write-backs leave them, every
    other buffer as launched. -/
def Wx (c : Dev nD) : Valuation τ sig (Elt F) :=
  Function.update (Function.update (fun b => m (c, b)) (Proc.devRef .tc main_v0_0) ((dats m 0 c).arrAt 2 cfg0.N))
    (Proc.devRef .tc main_v0_1) ((dats m 0 c).arrAt 3 cfg0.N)

theorem Wx_v0_0 (c : Dev nD) : Wx m c (Proc.devRef .tc main_v0_0) = (dats m 0 c).arrAt 2 cfg0.N := by
  unfold Wx; rw [Function.update_of_ne (StableHlo.devRef_ne_of_ne (by decide)), Function.update_self]

theorem Wx_v0_1 (c : Dev nD) : Wx m c (Proc.devRef .tc main_v0_1) = (dats m 0 c).arrAt 3 cfg0.N := by
  unfold Wx; rw [Function.update_self]

theorem Wx_rest (c : Dev nD) {b : Ref sig .tc} (h0 : b ≠ main_v0_0) (h1 : b ≠ main_v0_1) :
    Wx m c (Proc.devRef .tc b) = m (c, Proc.devRef .tc b) := by
  unfold Wx; rw [Function.update_of_ne (StableHlo.devRef_ne_of_ne h1), Function.update_of_ne (StableHlo.devRef_ne_of_ne h0)]

/-- Those buffers held at a valuation: the two result arrays, then the bypassing buffers. -/
theorem held_tail (c : Dev nD) (W : Valuation τ sig (Elt F)) :
    (StableHlo.held (c.tc : Thread nD τ) tailS W : sProp 𝕄)
      = iprop((((c.tc : Thread nD τ).loc main_v0_0) ↦{fullShare} W (Proc.devRef .tc main_v0_0))
          ∗ (((c.tc : Thread nD τ).loc main_v0_1) ↦{fullShare} W (Proc.devRef .tc main_v0_1))
          ∗ Pipeline.unscopedRest spec0 c (fun b => W (Proc.devRef .tc b))) := by
  unfold StableHlo.held tailS tailSet Pipeline.unscopedRest
  rw [bigSep_map, bigSep_insert (by decide), bigSep_insert (by decide)]
  rfl

theorem Wx_restV (c : Dev nD) {b : Ref sig .tc} (h0 : b ≠ main_v0_0) (h1 : b ≠ main_v0_1) :
    Wx m c (Proc.devRef .tc b) = V m c b := Wx_rest m c h0 h1

/-- The lines after the region leave the two result arrays as they find them. -/
theorem after_v0_0 (c : Dev nD) : StableHlo.after hostOps1 (Wx m c) (Proc.devRef .tc main_v0_0) = (dats m 0 c).arrAt 2 cfg0.N := by
  unfold hostOps1
  after_results
  exact Wx_v0_0 m c

theorem after_v0_1 (c : Dev nD) : StableHlo.after hostOps1 (Wx m c) (Proc.devRef .tc main_v0_1) = (dats m 0 c).arrAt 3 cfg0.N := by
  unfold hostOps1
  after_results
  exact Wx_v0_1 m c

/-- What they leave in the program's result buffer: the closing arithmetic on the two result arrays. -/
theorem after_v13 (c : Dev nD) : StableHlo.after hostOps1 (Wx m c) (Proc.devRef .tc main_v13)
    = Acc.tail ((dats m 0 c).arrAt 2 cfg0.N) ((dats m 0 c).arrAt 3 cfg0.N) := by
  unfold hostOps1
  after_results
  rw [Wx_v0_0, Wx_v0_1]
  rfl

/-- The bypassing buffers at the region's exit hold what they were launched with. -/
theorem rest_Wx (c : Dev nD) :
    (Pipeline.unscopedRest spec0 c (fun b => Wx m c (Proc.devRef .tc b)) : sProp 𝕄) = Pipeline.unscopedRest spec0 c (V m c) := by
  unfold Pipeline.unscopedRest
  exact bigSep_congr fun b hb => by
    beta_reduce
    rw [Wx_restV m c (fun e => (Finset.mem_sdiff.mp hb).2 (Finset.mem_image.mpr ⟨2, Finset.mem_univ _, e.symm⟩))
      (fun e => (Finset.mem_sdiff.mp hb).2 (Finset.mem_image.mpr ⟨3, Finset.mem_univ _, e.symm⟩))]

/-- The bypassing buffers after the lines. -/
def Zend (c : Dev nD) : sProp 𝕄 :=
  Pipeline.unscopedRest spec0 c (fun b => StableHlo.after hostOps1 (Wx m c) (Proc.devRef .tc b))

/-- What the lines run within, at the region's exit: the result arrays as the pipeline left them, the rest as launched. -/
theorem held_exit (c : Dev nD) : (StableHlo.held (c.tc : Thread nD τ) tailS (Wx m c) : sProp 𝕄)
    = iprop((((c.tc : Thread nD τ).loc main_v0_0) ↦{fullShare} (dats m 0 c).arrAt 2 cfg0.N)
        ∗ (((c.tc : Thread nD τ).loc main_v0_1) ↦{fullShare} (dats m 0 c).arrAt 3 cfg0.N)
        ∗ Pipeline.unscopedRest spec0 c (V m c)) := by
  rw [held_tail, Wx_v0_0, Wx_v0_1, rest_Wx]

/-- And after the lines: the result arrays unchanged, the rest at the lines' results. -/
theorem held_end (c : Dev nD) : (StableHlo.held (c.tc : Thread nD τ) tailS (StableHlo.after hostOps1 (Wx m c)) : sProp 𝕄)
    = iprop((((c.tc : Thread nD τ).loc main_v0_0) ↦{fullShare} (dats m 0 c).arrAt 2 cfg0.N)
        ∗ (((c.tc : Thread nD τ).loc main_v0_1) ↦{fullShare} (dats m 0 c).arrAt 3 cfg0.N)
        ∗ Zend m c) := by
  rw [held_tail, after_v0_0, after_v0_1]; rfl

set_option backward.isDefEq.respectTransparency.types false in
/-- THE LINES AFTER THE REGION: from the region's exit — the boundary, the pipeline's arrays, the bypassing buffers as
    launched — the seventeen lines run within the two result arrays and the bypassing buffers, the two halves of the input
    array set aside, and hand back the arrays and the bypassing buffers at the lines' results. -/
theorem htail (𝒱₀ : Variants) (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  rw [arrays_chain, Pipeline.chain_cons]
  iintro ⟨Hk, Hb, ⟨H0, H1, H2, H3⟩, HZ⟩
  ihave Hh := (Entails.of_eq (held_exit m c).symm) $$ [H2 H3 HZ]
  · isplitl [H2]; · iexact H2
    isplitl [H3]; · iexact H3
    iexact HZ
  iapply (StableHlo.wp_seq (Variants.lift 𝒱₀) none Set.univ c tailS _ hostOps1 (List.forall_iff_forall_mem.mp tail_sub)
    (List.forall_iff_forall_mem.mp hostOps1_fresh) (Wx m c)) $$ [Hb Hh]
  · isplitl [Hb]; · iexact Hb
    iexact Hh
  iintro ⟨Hb, Hh⟩
  rw [Pipeline.chain_nil, wp_pure]
  imodintro
  iapply Hk
  ihave Hh := (Entails.of_eq (held_end m c)) $$ Hh
  icases Hh with ⟨H2, H3, HZ⟩
  isplitr [HZ]
  · isplitl [H0]; · iexact H0
    isplitl [H1]; · iexact H1
    isplitl [H2]; · iexact H2
    iexact H3
  iexact HZ

/-- The final memory holds the lines' result in the program's result buffer. -/
theorem hY (c : Dev nD) (s' : Phys nD τ sig (Elt F)) :
    iprop((∃ r, prngReg c r) ∗ Zend m c ∗ SI s')
      ⊢ |={Set.univ}=> iprop(⌜s'.mem.mem ((c.tc : Thread nD τ).loc main_v13)
            = Acc.tail ((dats m 0 c).arrAt 2 cfg0.N) ((dats m 0 c).arrAt 3 cfg0.N)⌝ ∗ SI s') := by
  unfold Zend Pipeline.unscopedRest
  iintro ⟨-, HU, HSI⟩
  imodintro
  ihave H := (pointsTo_read_all (Pipeline.restRefs sig spec0) (fun b => (c.tc : Thread nD τ).loc b)
    (fun b => StableHlo.after hostOps1 (Wx m c) (Proc.devRef .tc b)) s') $$ [HU HSI]
  · isplitl [HU] <;> iassumption
  icases H with ⟨%h, HSI⟩
  isplitr
  · ipureintro; exact (h main_v13 (by decide)).trans (after_v13 m c)
  iexact HSI

/-! ## The run of @main -/

/-- @main is the kernel region continued by the seventeen lines (`Gen.main_chain`). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

set_option backward.isDefEq.respectTransparency.types false in
/-- From any memory with zero counters every weakly fair execution of @main terminates, and in every final state the
    program's result buffer holds the closing arithmetic on the two result arrays as the pipeline's write-backs leave
    them, and the input array is as launched — given the kernel body's obligation at every grid point. -/
theorem run_main (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v13) = Acc.tail ((dats m 0 c).arrAt 2 cfg0.N) ((dats m 0 c).arrAt 3 cfg0.N)
      ∧ r.2.mem ((c.tc : Thread nD τ).loc main_arg0) = m ((c.tc : Thread nD τ).loc main_arg0)) :=
  Pipeline.θ_run_region_pf_tail (fun p => (cfgs p).toPCfg) (fun p => (cfgs p).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := Zend m)
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m Variants.none)
    (QY := fun c s => s.mem ((c.tc : Thread nD τ).loc main_v13) = Acc.tail ((dats m 0 c).arrAt 2 cfg0.N) ((dats m 0 c).arrAt 3 cfg0.N))
    (hY := hY m)
    (hQ := fun s h c => ⟨(h c).2.2, ((h c).1 0).trans (((dats m 0 c).arrAt_in 0 rfl _).trans rfl)⟩)

end Cert.Kernel.Fr

end
-- ==== Proof.Spec.lean ====
import Idealize.ShloMosaic.PureOps.Ideal.Laws
import Idealize.ShloMosaic.Lib.ValueIdx

/-!
# The estimator as a function of the input array

The input is 32 batches of 2048 points in 64 dimensions.  For a batch `b` write `s i = Σ_d x[b,i,d]²` for the squared
norm of point `i` and `g i j = Σ_d x[b,i,d]·x[b,j,d]` for the inner product of points `i` and `j`.  Both programs
compute, per batch, the double sum over `i, j` of `exp (-(s i + s j - 2·g i j) / 2)` and the sum over `i` of
`exp (-(s i) / 4)`; they differ in three ways only.  One of them negates by subtracting from zero; it replaces the
entries with `i = j` by the constant one; and it adds the rows up in four groups of 512.  Here the entries are
written in both forms and shown equal: the negations agree on all extended reals, the diagonal entry is
`exp ((-(s + s - 2·s)) / 2) = exp 0 = 1` as soon as `s` is a real number (which it is when every input is), and
a sum over 2048 rows is the sum of the four sums over 512 rows each because addition of extended reals is
commutative and associative.
-/

noncomputable section

open scoped BigOperators

namespace Cert.Bridge

open Idealize.ShloMosaic Idealize.ShloMosaic.ValueIdx

/-- 32 batches of 2048 points in 64 dimensions, each entry an extended real. -/
abbrev Arr : Type := (⟨3, ![32, 2048, 64]⟩ : Shape).Idx → EReal

local notation "w0" => Ideal.ofBits FTy.f32 0x00000000#32
local notation "w1" => Ideal.ofBits FTy.f32 0x3F800000#32
local notation "w2" => Ideal.ofBits FTy.f32 0x40000000#32
local notation "w4" => Ideal.ofBits FTy.f32 0x40800000#32

/-- The squared norm of point `i` of batch `b`. -/
def sq (x : Arr) (b : Fin 32) (i : Fin 2048) : EReal := ∑ d : Fin 64, x (ix3 b i d) * x (ix3 b i d)

/-- The inner product of points `i` and `j` of batch `b`. -/
def gram (x : Arr) (b : Fin 32) (i j : Fin 2048) : EReal := ∑ d : Fin 64, x (ix3 b i d) * x (ix3 b j d)

/-- The squared distance of points `i` and `j`, as both programs spell it: `(s i + s j) - 2 · g i j`. -/
def dist (x : Arr) (b : Fin 32) (i j : Fin 2048) : EReal := (sq x b i + sq x b j) - w2 * gram x b i j

/-- The pair entry with the negation written as a negation. -/
def E (x : Arr) (b : Fin 32) (i j : Fin 2048) : EReal := Ideal.exp (Ideal.div (-(dist x b i j)) w2)

/-- The pair entry with the negation written as a subtraction from zero and the diagonal replaced by one. -/
def Em (x : Arr) (b : Fin 32) (i j : Fin 2048) : EReal :=
  if i = j then w1 else Ideal.exp (Ideal.div (w0 - dist x b i j) w2)

/-- The single-point entry with the negation written as a negation. -/
def e (x : Arr) (b : Fin 32) (i : Fin 2048) : EReal := Ideal.exp (Ideal.div (-(sq x b i)) w4)

/-- The single-point entry with the negation written as a subtraction from zero. -/
def em (x : Arr) (b : Fin 32) (i : Fin 2048) : EReal := Ideal.exp (Ideal.div (w0 - sq x b i) w4)

/-- The double sum of the pair entries of batch `b`. -/
def YY (x : Arr) (b : Fin 32) : EReal := ∑ i : Fin 2048, ∑ j : Fin 2048, E x b i j

/-- The sum of the single-point entries of batch `b`. -/
def XY (x : Arr) (b : Fin 32) : EReal := ∑ i : Fin 2048, e x b i

/-- Row `r` of the `t`-th group of 512 rows. -/
abbrev row (t : Fin 4) (r : Fin 512) : Fin 2048 := ⟨512 * t.val + r.val, by have := t.isLt; have := r.isLt; omega⟩

/-- What the `t`-th group of 512 rows contributes to the double sum, in the masked form. -/
def tileYY (x : Arr) (b : Fin 32) (t : Fin 4) : EReal := ∑ r : Fin 512, ∑ c : Fin 2048, Em x b (row t r) c

/-- What the `t`-th group of 512 rows contributes to the single sum. -/
def tileXY (x : Arr) (b : Fin 32) (t : Fin 4) : EReal := ∑ r : Fin 512, em x b (row t r)

/-! ## The words that are evaluated -/

theorem two_eq : w2 = ((2 : ℝ) : EReal) := by
  simp [Ideal.ofBits, Ideal.ieee, -EReal.coe_mul] <;> norm_num

theorem one_eq : w1 = (1 : EReal) := by
  simp [Ideal.ofBits, Ideal.ieee, -EReal.coe_mul] <;> norm_num

/-- Subtracting from the zero word is negating. -/
theorem zero_sub_eq (a : EReal) : w0 - a = -a := by
  rw [Ideal.ofBits_zero_f32, sub_eq_add_neg, zero_add]

theorem em_eq (x : Arr) (b : Fin 32) (i : Fin 2048) : em x b i = e x b i := by
  unfold em e; rw [zero_sub_eq]

/-! ## The diagonal, for real inputs -/

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- When every input is a real number so is every squared norm. -/
theorem sq_real (x : Arr) (hfin : ∀ i, ∃ r : ℝ, x i = (r : EReal)) (b : Fin 32) (i : Fin 2048) :
    ∃ s : ℝ, sq x b i = (s : EReal) := by
  choose f hf using hfin
  refine ⟨∑ d : Fin 64, f (ix3 b i d) * f (ix3 b i d), ?_⟩
  unfold sq
  rw [coe_sum]
  exact Finset.sum_congr rfl fun d _ => by rw [hf, EReal.coe_mul]

/-- The inner product of a point with itself is its squared norm. -/
theorem gram_self (x : Arr) (b : Fin 32) (i : Fin 2048) : gram x b i i = sq x b i := rfl

/-- On the diagonal the squared distance of real points is `(s + s) - 2·s = 0`, so the entry is `exp 0 = 1`. -/
theorem E_diag (x : Arr) (hfin : ∀ i, ∃ r : ℝ, x i = (r : EReal)) (b : Fin 32) (i : Fin 2048) :
    E x b i i = w1 := by
  obtain ⟨s, hs⟩ := sq_real x hfin b i
  unfold E dist
  rw [gram_self, hs, two_eq, one_eq, ← EReal.coe_add, ← EReal.coe_mul, ← EReal.coe_sub, ← EReal.coe_neg,
    Ideal.div_coe (by norm_num : (2 : ℝ) ≠ 0), ← EReal.coe_mul,
    show -(s + s - 2 * s) * (1 / 2) = (0 : ℝ) by ring, Ideal.exp_coe, Real.exp_zero, EReal.coe_one]

/-- For real inputs the masked entry is the plain entry. -/
theorem Em_eq (x : Arr) (hfin : ∀ i, ∃ r : ℝ, x i = (r : EReal)) (b : Fin 32) (i j : Fin 2048) :
    Em x b i j = E x b i j := by
  unfold Em
  by_cases h : i = j
  · subst h; rw [if_pos rfl, E_diag x hfin]
  · rw [if_neg h, zero_sub_eq]; rfl

/-! ## Four groups of 512 rows are the 2048 rows -/

/-- A row is its group and its place in the group. -/
def tileEquiv : Fin 4 × Fin 512 ≃ Fin 2048 where
  toFun p := row p.1 p.2
  invFun i := (⟨i.val / 512, by have := i.isLt; omega⟩, ⟨i.val % 512, Nat.mod_lt _ (by decide)⟩)
  left_inv := fun ⟨t, r⟩ => by
    have := t.isLt; have := r.isLt
    refine Prod.ext (Fin.ext ?_) (Fin.ext ?_)
    · show (512 * t.val + r.val) / 512 = t.val; omega
    · show (512 * t.val + r.val) % 512 = r.val; omega
  right_inv := fun i => Fin.ext (by show 512 * (i.val / 512) + i.val % 512 = i.val; omega)

theorem sum_tiles {M : Type} [AddCommMonoid M] (f : Fin 2048 → M) :
    ∑ i : Fin 2048, f i = ∑ t : Fin 4, ∑ r : Fin 512, f (row t r) := by
  rw [← Equiv.sum_comp tileEquiv f, Fintype.sum_prod_type]
  rfl

/-- The four groups' contributions, added to zero one after the other, are the double sum. -/
theorem tiles_YY (x : Arr) (hfin : ∀ i, ∃ r : ℝ, x i = (r : EReal)) (b : Fin 32) :
    w0 + tileYY x b 0 + tileYY x b 1 + tileYY x b 2 + tileYY x b 3 = w0 + YY x b := by
  unfold YY tileYY
  rw [sum_tiles, Fin.sum_univ_four]
  simp only [Em_eq x hfin, add_assoc]

/-- The four groups' contributions to the single sum likewise. -/
theorem tiles_XY (x : Arr) (b : Fin 32) :
    w0 + tileXY x b 0 + tileXY x b 1 + tileXY x b 2 + tileXY x b 3 = w0 + XY x b := by
  unfold XY tileXY
  rw [sum_tiles, Fin.sum_univ_four]
  simp only [em_eq, add_assoc]

/-! ## The closing arithmetic -/

/-- The closing arithmetic on a batch's two sums, `c₀ + yy / 4192256 - (2⁻¹⁰ · xy) · 2⁻³²`, the constants kept as the
    words both programs carry. -/
def tailAt (yy xy : EReal) : EReal :=
  (Ideal.ofBits FTy.f32 0x261B8BD8#32 + Ideal.div yy (Ideal.ofBits FTy.f32 0x4A7FE000#32))
    - (Ideal.ofBits FTy.f32 0x3A800000#32 * xy) * Ideal.ofBits FTy.f32 0x2F800000#32

/-- The estimator of batch `b`; both sums start from the zero word. -/
def G (x : Arr) (b : Fin 32) : EReal := tailAt (w0 + YY x b) (w0 + XY x b)

end Cert.Bridge

end
-- ==== Proof.Layout.lean ====
import Idealize.ShloMosaic.Lib.ValueLayout
import Idealize.ShloMosaic.PureOps.Ideal.Laws

/-!
# Columns, lane sums and the diagonal test, read at an index

The kernel keeps every intermediate two-dimensional: a sum over the lanes of a `[a, b]` block is stored as a column
`[a, 1]`, a column is transposed to a row or spread over `b` lanes, and the last partial sum is spread from `[1, 1, 1]`
over a whole `[1, 8, 128]` block.  Each of these operations reads one element of its operand; the lemmas here say
which one, at indices given by their coordinates.  A sum over one axis is the sum over that axis's coordinates.  The
test "row = column" on 32-bit words is the test on the numbers while the row number stays below 2048.
-/

open scoped BigOperators

namespace Cert.Bridge.Layout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array spread over a `[1, a, b]` block reads its one entry everywhere. -/
theorem broadcastTo_111_1ab_apply {a b : ℕ} (v : (⟨3, ![1, 1, 1]⟩ : Shape).Idx → α)
    (h : (⟨3, ![1, 1, 1]⟩ : Shape).Broadcasts ⟨3, ![1, a, b]⟩) (u : Fin 1) (p : Fin a) (c : Fin b) :
    broadcastTo ⟨3, ![1, a, b]⟩ v h (ix3 u p c) = v (ix3 (0 : Fin 1) (0 : Fin 1) (0 : Fin 1)) := by
  refine broadcastTo_apply v h (ix3 u p c) (ix3 (0 : Fin 1) (0 : Fin 1) (0 : Fin 1)) fun ax => ?_
  match ax with
  | ⟨0, _⟩ => rfl
  | ⟨1, _⟩ => rfl
  | ⟨2, _⟩ => rfl

/-- A sum over the lanes of a matrix reads, at row `r`, the sum over the columns. -/
theorem sum_lanes_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src ?_
  funext ax
  apply Fin.ext
  match ax with
  | ⟨0, _⟩ => rfl
  | ⟨1, _⟩ => rfl

/-- A sum of a column over its rows reads the sum over the rows. -/
theorem sum_rows_apply {a : ℕ} (src : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ src acc h hφ hacc (ix1 u) = ∑ r : Fin a, src (ix2 r u) := by
  refine (Ideal.multiReduction_add_single src acc h hφ hacc (ix1 u)).trans ?_
  refine Finset.sum_congr rfl fun r _ => congrArg src ?_
  funext ax
  apply Fin.ext
  match ax with
  | ⟨0, _⟩ => rfl
  | ⟨1, _⟩ => rfl

/-- The kernel's diagonal test: the row number `512·t + r`, computed in 32-bit words, equals the column number `c`
    exactly when the numbers are equal (nothing wraps below 2048). -/
theorem diag_bit (t r c : ℕ) (ht : t < 4) (hr : r < 512) (hc : c < 2048) :
    IntOp.cmpi .eq (IntOp.addi (Scalar.muli (BitVec.ofNat 32 t) 512#32) (BitVec.ofNat 32 r)) (BitVec.ofNat 32 c)
      = if 512 * t + r = c then 1#1 else 0#1 := by
  have e : IntOp.addi (Scalar.muli (BitVec.ofNat 32 t) 512#32) (BitVec.ofNat 32 r) = BitVec.ofNat 32 (512 * t + r) := by
    apply BitVec.eq_of_toNat_eq
    simp only [IntOp.addi, Scalar.muli, IntOp.muli, BitVec.toNat_add, BitVec.toNat_mul, BitVec.toNat_ofNat]
    omega
  rw [e]
  unfold IntOp.cmpi
  by_cases h : 512 * t + r = c
  · rw [if_pos h, h]; simp
  · rw [if_neg h]
    have hne : BitVec.ofNat 32 (512 * t + r) ≠ BitVec.ofNat 32 c := fun hh => h (by
      have := congrArg BitVec.toNat hh
      simp only [BitVec.toNat_ofNat] at this
      omega)
    have hb : (BitVec.ofNat 32 (512 * t + r) == BitVec.ofNat 32 c) = false := by
      rw [beq_eq_false_iff_ne]; exact hne
    rw [hb]; rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the two trailing axes of a rank-3 array into its leading axis collects, at `b`, the entries
    `(b, p, q)`: the host's two-axis sum as a double sum. -/
theorem sum_fibre3 {M : Type} [AddCommMonoid M] {n0 n1 n2 : ℕ}
    (h : (⟨3, ![n0, n1, n2]⟩ : Shape).ReducesTo [1, 2] ⟨1, ![n0]⟩) (y : (⟨3, ![n0, n1, n2]⟩ : Shape).Idx → M) (b : Fin n0) :
    ∑ i ∈ Finset.univ.filter (fun i => h.drop i = ix1 b), y i = ∑ p : Fin n1, ∑ q : Fin n2, y (ix3 b p q) := by
  have hP : ∀ i : (⟨3, ![n0, n1, n2]⟩ : Shape).Idx, h.drop i = ix1 b ↔ (i 0 : Fin n0) = b := fun i => by
    constructor
    · intro e
      have e0 := congrArg (fun j : (⟨1, ![n0]⟩ : Shape).Idx => (j 0).val) e
      exact Fin.ext e0
    · intro e
      funext a
      match a with
      | ⟨0, _⟩ => exact Fin.ext (congrArg Fin.val e)
  rw [← Fintype.sum_prod_type' (fun p q => y (ix3 b p q))]
  refine Finset.sum_nbij' (fun i => ((i 1, i 2) : Fin n1 × Fin n2)) (fun pq => ix3 b pq.1 pq.2) ?_ ?_ ?_ ?_ ?_
  · intro i _; exact Finset.mem_univ _
  · intro pq _; exact Finset.mem_filter.2 ⟨Finset.mem_univ _, (hP _).2 rfl⟩
  · intro i hi
    have h0 := (hP i).1 (Finset.mem_filter.1 hi).2
    rw [← h0]; exact (eq_ix3 i).symm
  · intro pq _; rfl
  · intro i hi
    have h0 := (hP i).1 (Finset.mem_filter.1 hi).2
    rw [← h0]; exact congrArg y (eq_ix3 i)

end Cert.Bridge.Layout
-- ==== Proof.Ker.lean ====
import proofs.«141074_j60129542698_2_alg».proof.Proof.Acc
import proofs.«141074_j60129542698_2_alg».proof.Proof.Spec
import proofs.«141074_j60129542698_2_alg».proof.Proof.Layout

/-!
# One grid step's arithmetic, read at an index

A grid step works on a block of 512 rows and on all 2048 rows of the same batch.  From the row block it forms the
column of squared norms; from all rows the row of squared norms and, by one matrix product contracting the 64
coordinates, the 512 × 2048 inner products; from these the 512 × 2048 entries `exp ((0 - d) / 2)` with the entry
replaced by one where the row number equals the column number; it sums each row, then the 512 row sums, and adds the
total to every element of the accumulator block.  Here each of these values is read at an index as a finite sum over
the input block's entries.
-/

noncomputable section

open scoped BigOperators

namespace Cert.Bridge.Ker

open Idealize.ShloMosaic Idealize.ShloMosaic.ValueIdx Cert.KernelIdeal Cert.KernelIdeal.Gen Cert.Bridge.Layout

local notation "w0" => Ideal.ofBits FTy.f32 0x00000000#32
local notation "w1" => Ideal.ofBits FTy.f32 0x3F800000#32
local notation "w2" => Ideal.ofBits FTy.f32 0x40000000#32
local notation "w4" => Ideal.ofBits FTy.f32 0x40800000#32

/-! ## The matrix product at an index -/

/-- The product's dimension numbers: rows × 64 times 64 × columns. -/
abbrev D := dot_S512x64_S64x2048_S512x2048_1_0_0_1_n_n

theorem lhs0 (i : S512x2048.Idx) (q : D.contr.Idx) : (D.lhsIdx i q 0).val = (i 0).val := by
  unfold DotDims.lhsIdx
  rw [dif_neg (show ¬(0 : Fin S512x64.rank) ∈ D.lhsBatch by decide),
    dif_pos (show (0 : Fin S512x64.rank) ∈ D.lhsNonContracting by decide)]
  rfl
theorem lhs1 (i : S512x2048.Idx) (q : D.contr.Idx) : (D.lhsIdx i q 1).val = (q ⟨0, by decide⟩).val :=
  D.lhsIdx_val_of_single rfl i q
theorem rhs0 (i : S512x2048.Idx) (q : D.contr.Idx) : (D.rhsIdx i q 0).val = (q ⟨0, by decide⟩).val :=
  D.rhsIdx_val_of_single rfl i q
theorem rhs1 (i : S512x2048.Idx) (q : D.contr.Idx) : (D.rhsIdx i q 1).val = (i 1).val := by
  unfold DotDims.rhsIdx
  rw [dif_neg (show ¬(1 : Fin S64x2048.rank) ∈ D.rhsBatch by decide),
    dif_pos (show (1 : Fin S64x2048.rank) ∈ D.rhsNonContracting by decide)]
  rfl

/-- Into the zero block, the matrix product at `(r, c)` is the sum over the 64 contracted coordinates. -/
theorem gram_apply (l : FVec Ideal S512x64 .bf16) (m : FVec Ideal S64x2048 .bf16) (r : Fin 512) (c : Fin 2048) :
    matmul D none l m (constant (F := Ideal) S512x2048 .f32 0x00000000#32) (ix2 r c)
      = ∑ d : Fin 64, l (ix2 r d) * m (ix2 d c) := by
  show FloatOps.matmul D none l m (constant (F := Ideal) S512x2048 .f32 0x00000000#32) (ix2 r c) = _
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 r c) ((contrEquiv1 D 64 rfl rfl).symm k) = ix2 r k := funext fun a => Fin.ext (by
    match a with
    | ⟨0, _⟩ => exact lhs0 _ _
    | ⟨1, _⟩ => exact (lhs1 _ _).trans hk)
  have er : D.rhsIdx (ix2 r c) ((contrEquiv1 D 64 rfl rfl).symm k) = ix2 k c := funext fun a => Fin.ext (by
    match a with
    | ⟨0, _⟩ => exact (rhs0 _ _).trans hk
    | ⟨1, _⟩ => exact rhs1 _ _)
  rw [el, er]

/-! ## The step's intermediate values, named -/

section Pieces

variable (v3 : Vec Ideal S1x512x64 .f32) (v5 : Vec Ideal S1x2048x64 .f32)

/-- All rows of the batch as a 2048 × 64 matrix. -/
def cols : FVec Ideal S2048x64 .f32 := shapeCast S2048x64 v5 shapeCasts_S1x2048x64_S2048x64

/-- The squared norms of all rows, laid out as one row of 2048. -/
def colSq : FVec Ideal S1x2048 .f32 :=
  transpose S1x2048 [1, 0]
    (shapeCast S2048x1 (multiReduction .add [1] S2048 (mulf (cols v5) (cols v5)) 0x00000000#32 reduces_S2048x64_S2048 (.inl rfl) rfl)
      shapeCasts_S2048_S2048x1)
    transposes_S2048x1_p1_0_S1x2048

/-- The inner products of the block's rows with all rows. -/
def gramM : FVec Ideal S512x2048 .f32 :=
  matmul D none (truncf .bf16 (k0_pay5 v3) bitsLt_bf16_f32)
    (transpose S64x2048 [1, 0] (truncf .bf16 (cols v5) bitsLt_bf16_f32) transposes_S2048x64_p1_0_S64x2048)
    (constant S512x2048 .f32 0x00000000#32)

/-- The squared distances. -/
def d2 : FVec Ideal S512x2048 .f32 :=
  subf (addf (broadcastTo S512x2048 (k0_pay6 v3) broadcasts_S512x1_S512x2048)
      (broadcastTo S512x2048 (colSq v5) broadcasts_S1x2048_S512x2048))
    (mulf (broadcast S512x2048 (Scalar.ofBits (F := Ideal) .f32 0x40000000#32)) (gramM v3 v5))

/-- The entries before the diagonal is replaced. -/
def entries : FVec Ideal S512x2048 .f32 :=
  exp (divf (subf (broadcast S512x2048 (Scalar.ofBits (F := Ideal) .f32 0x00000000#32)) (d2 v3 v5))
    (broadcast S512x2048 (Scalar.ofBits (F := Ideal) .f32 0x40000000#32)))

/-- The test "row number = column number", the row numbers starting at `512 · t`. -/
def diag (t : BitVec 32) : IVec S512x2048 1 :=
  cmpi .eq (addi (broadcast S512x2048 (Scalar.muli t 512#32)) (iota .tc S512x2048 32 [0] iota_S512x2048_d0_w32))
    (iota .tc S512x2048 32 [1] iota_S512x2048_d1_w32)

/-- The step's column of row sums is built from these pieces. -/
theorem pay7_eq (i : grid0.Coords) :
    k0_pay7 i v3 v5
      = shapeCast S512x1
          (multiReduction .add [1] S512
            (select (diag (BitVec.ofNat 32 (i 1).val)) (broadcast S512x2048 (Scalar.ofBits (F := Ideal) .f32 0x3F800000#32))
              (entries v3 v5))
            0x00000000#32 reduces_S512x2048_S512 (.inl rfl) rfl)
          shapeCasts_S512_S512x1 := rfl

end Pieces

/-! ## The pieces at an index -/

section Reads

variable (v3 : Vec Ideal S1x512x64 .f32) (v5 : Vec Ideal S1x2048x64 .f32)

/-- The squared norm of row `r` of a row block. -/
def rowS (r : Fin 512) : EReal := ∑ d : Fin 64, v3 (ix3 (0 : Fin 1) r d) * v3 (ix3 (0 : Fin 1) r d)
/-- The squared norm of row `c` of the batch. -/
def colS (c : Fin 2048) : EReal := ∑ d : Fin 64, v5 (ix3 (0 : Fin 1) c d) * v5 (ix3 (0 : Fin 1) c d)
/-- The inner product of row `r` of the row block and row `c` of the batch. -/
def rcG (r : Fin 512) (c : Fin 2048) : EReal := ∑ d : Fin 64, v3 (ix3 (0 : Fin 1) r d) * v5 (ix3 (0 : Fin 1) c d)

theorem cols_apply (c : Fin 2048) (d : Fin 64) : cols v5 (ix2 c d) = v5 (ix3 (0 : Fin 1) c d) :=
  shapeCast_1ab_ab_apply v5 _ c d

theorem pay5_apply (r : Fin 512) (d : Fin 64) : k0_pay5 v3 (ix2 r d) = v3 (ix3 (0 : Fin 1) r d) :=
  shapeCast_1ab_ab_apply v3 _ r d

theorem pay6_apply (r : Fin 512) (u : Fin 1) : k0_pay6 v3 (ix2 r u) = rowS v3 r := by
  unfold k0_pay6
  refine (shapeCast_a_a1_apply _ _ r u).trans ?_
  refine (sum_lanes_apply _ _ _ _ _ r).trans ?_
  refine Finset.sum_congr rfl fun d _ => ?_
  show k0_pay5 v3 (ix2 r d) * k0_pay5 v3 (ix2 r d) = _
  rw [pay5_apply]

theorem colSq_apply (u : Fin 1) (c : Fin 2048) : colSq v5 (ix2 u c) = colS v5 c := by
  unfold colSq
  refine (transpose_ix2_apply _ _ u c).trans ?_
  refine (shapeCast_a_a1_apply _ _ c u).trans ?_
  refine (sum_lanes_apply _ _ _ _ _ c).trans ?_
  refine Finset.sum_congr rfl fun d _ => ?_
  show cols v5 (ix2 c d) * cols v5 (ix2 c d) = _
  rw [cols_apply]

theorem gramM_apply (r : Fin 512) (c : Fin 2048) : gramM v3 v5 (ix2 r c) = rcG v3 v5 r c := by
  unfold gramM
  refine (gram_apply _ _ r c).trans ?_
  refine Finset.sum_congr rfl fun d _ => ?_
  show k0_pay5 v3 (ix2 r d)
      * transpose S64x2048 [1, 0] (truncf .bf16 (cols v5) bitsLt_bf16_f32) transposes_S2048x64_p1_0_S64x2048 (ix2 d c) = _
  rw [pay5_apply, transpose_ix2_apply]
  show _ * cols v5 (ix2 c d) = _
  rw [cols_apply]

theorem d2_apply (r : Fin 512) (c : Fin 2048) :
    d2 v3 v5 (ix2 r c) = (rowS v3 r + colS v5 c) - w2 * rcG v3 v5 r c := by
  unfold d2
  show (broadcastTo S512x2048 (k0_pay6 v3) broadcasts_S512x1_S512x2048 (ix2 r c)
        + broadcastTo S512x2048 (colSq v5) broadcasts_S1x2048_S512x2048 (ix2 r c))
      - w2 * gramM v3 v5 (ix2 r c) = _
  rw [broadcastTo_a1_ab_apply, pay6_apply, broadcastTo_1b_ab_apply, colSq_apply, gramM_apply]

theorem entries_apply (r : Fin 512) (c : Fin 2048) :
    entries v3 v5 (ix2 r c) = Ideal.exp (Ideal.div (w0 - ((rowS v3 r + colS v5 c) - w2 * rcG v3 v5 r c)) w2) := by
  unfold entries
  show Ideal.exp (Ideal.div (w0 - d2 v3 v5 (ix2 r c)) w2) = _
  rw [d2_apply]

theorem diag_apply (t : ℕ) (r : Fin 512) (c : Fin 2048) :
    diag (BitVec.ofNat 32 t) (ix2 r c)
      = IntOp.cmpi .eq (IntOp.addi (Scalar.muli (BitVec.ofNat 32 t) 512#32) (BitVec.ofNat 32 r.val)) (BitVec.ofNat 32 c.val) := by
  unfold diag
  show IntOp.cmpi .eq (IntOp.addi (Scalar.muli (BitVec.ofNat 32 t) 512#32) (iota .tc S512x2048 32 [0] iota_S512x2048_d0_w32 (ix2 r c)))
      (iota .tc S512x2048 32 [1] iota_S512x2048_d1_w32 (ix2 r c)) = _
  rw [iota_single_apply, iota_single_apply]

/-- The step's column of row sums at row `r`: the sum over the 2048 columns of the entries, one on the diagonal. -/
theorem pay7_apply (i : grid0.Coords) (hi : (i 1).val < 4) (r : Fin 512) (u : Fin 1) :
    k0_pay7 i v3 v5 (ix2 r u)
      = ∑ c : Fin 2048, if 512 * (i 1).val + r.val = c.val then w1
          else Ideal.exp (Ideal.div (w0 - ((rowS v3 r + colS v5 c) - w2 * rcG v3 v5 r c)) w2) := by
  rw [pay7_eq]
  refine (shapeCast_a_a1_apply _ _ r u).trans ?_
  refine (sum_lanes_apply _ _ _ _ _ r).trans ?_
  refine Finset.sum_congr rfl fun c _ => ?_
  rw [select_apply, diag_apply, diag_bit _ _ _ hi r.isLt c.isLt, broadcast_apply, entries_apply]
  by_cases h : 512 * (i 1).val + r.val = c.val
  · rw [if_pos h, if_pos h, select_one]; rfl
  · rw [if_neg h, if_neg h, select_zero]

/-- A step adds the sum of the column of row sums to every element of the first accumulator. -/
theorem pay1_apply (v38 : FVec Ideal S512x1 .f32) (prev : Vec Ideal S1x8x128 .f32) (u : Fin 1) (p : Fin 8) (l : Fin 128) :
    k0_pay1 v38 prev (ix3 u p l) = prev (ix3 u p l) + ∑ r : Fin 512, v38 (ix2 r (0 : Fin 1)) := by
  unfold k0_pay1
  show shapeCast S1x8x128 prev shapeCasts_S1x8x128_S1x8x128 (ix3 u p l)
      + broadcastTo S1x8x128
          (shapeCast S1x1x1 (shapeCast S1x1 (multiReduction .add [0] S1 v38 0x00000000#32 reduces_S512x1_S1 (.inl rfl) rfl)
            shapeCasts_S1_S1x1) shapeCasts_S1x1_S1x1x1)
          broadcasts_S1x1x1_S1x8x128 (ix3 u p l) = _
  rw [shapeCast_self]
  refine congrArg (prev (ix3 u p l) + ·) ?_
  refine (broadcastTo_111_1ab_apply _ _ u p l).trans ?_
  refine (shapeCast_ab_1ab_apply _ _ (0 : Fin 1) (0 : Fin 1) (0 : Fin 1)).trans ?_
  refine (shapeCast_a_1a_apply _ _ (0 : Fin 1) (0 : Fin 1)).trans ?_
  exact sum_rows_apply _ _ _ _ _ (0 : Fin 1)

/-- A step adds the sum over the block's rows of `exp ((0 - s) / 4)` to every element of the second accumulator. -/
theorem pay2_apply (v9 : FVec Ideal S512x1 .f32) (prev : Vec Ideal S1x8x128 .f32) (u : Fin 1) (p : Fin 8) (l : Fin 128) :
    k0_pay2 v9 prev (ix3 u p l)
      = prev (ix3 u p l) + ∑ r : Fin 512, Ideal.exp (Ideal.div (w0 - v9 (ix2 r (0 : Fin 1))) w4) := by
  unfold k0_pay2
  show shapeCast S1x8x128 prev shapeCasts_S1x8x128_S1x8x128 (ix3 u p l)
      + broadcastTo S1x8x128
          (shapeCast S1x1x1 (shapeCast S1x1 (multiReduction .add [0] S1
              (exp (divf (subf (broadcast S512x1 (Scalar.ofBits (F := Ideal) .f32 0x00000000#32)) v9)
                (broadcast S512x1 (Scalar.ofBits (F := Ideal) .f32 0x40800000#32))))
              0x00000000#32 reduces_S512x1_S1 (.inl rfl) rfl)
            shapeCasts_S1_S1x1) shapeCasts_S1x1_S1x1x1)
          broadcasts_S1x1x1_S1x8x128 (ix3 u p l) = _
  rw [shapeCast_self]
  refine congrArg (prev (ix3 u p l) + ·) ?_
  refine (broadcastTo_111_1ab_apply _ _ u p l).trans ?_
  refine (shapeCast_ab_1ab_apply _ _ (0 : Fin 1) (0 : Fin 1) (0 : Fin 1)).trans ?_
  refine (shapeCast_a_1a_apply _ _ (0 : Fin 1) (0 : Fin 1)).trans ?_
  refine (sum_rows_apply _ _ _ _ _ (0 : Fin 1)).trans ?_
  rfl

end Reads

end Cert.Bridge.Ker

end
-- ==== Proof.KerAcc.lean ====
import proofs.«141074_j60129542698_2_alg».proof.Proof.Ker

/-!
# The kernel's accumulators and result are the specification's

A grid step of batch `b` on the `t`-th group of 512 rows adds to every element of the first accumulator block that
group's share of the double sum (in the masked form), and to the second its share of the single sum.  Starting from
the zero block, after the four steps every element holds the four shares added in order; the closing arithmetic
reads element `[b, 0, 0]` of each result array.
-/

noncomputable section

open scoped BigOperators

namespace Cert.Bridge.Ker

open Idealize.ShloMosaic Idealize.ShloMosaic.ValueIdx Cert.KernelIdeal Cert.KernelIdeal.Gen Cert.KernelIdeal.Acc
  Cert.Bridge.Layout

local notation "w0" => Ideal.ofBits FTy.f32 0x00000000#32
local notation "w1" => Ideal.ofBits FTy.f32 0x3F800000#32
local notation "w2" => Ideal.ofBits FTy.f32 0x40000000#32
local notation "w4" => Ideal.ofBits FTy.f32 0x40800000#32

variable (x : Arr)

/-! ## The blocks a step reads -/

theorem rowS_rowBlk (b : Fin 32) (t : Fin 4) (r : Fin 512) : rowS (rowBlk (F := Ideal) x b t) r = sq x b (row t r) := rfl
theorem colS_colBlk (b : Fin 32) (c : Fin 2048) : colS (colBlk (F := Ideal) x b) c = sq x b c := rfl
theorem rcG_blk (b : Fin 32) (t : Fin 4) (r : Fin 512) (c : Fin 2048) :
    rcG (rowBlk (F := Ideal) x b t) (colBlk (F := Ideal) x b) r c = gram x b (row t r) c := rfl

/-! ## One step -/

theorem stepYY_apply (b : Fin 32) (t : Fin 4) (prev : Vec Ideal S1x8x128 .f32) (u : Fin 1) (p : Fin 8) (l : Fin 128) :
    stepYY (F := Ideal) x b t prev (ix3 u p l) = prev (ix3 u p l) + tileYY x b t := by
  unfold stepYY
  rw [pay1_apply]
  refine congrArg (prev (ix3 u p l) + ·) ?_
  unfold tileYY
  refine Finset.sum_congr rfl fun r _ => ?_
  rw [pay7_apply _ _ (pt b t) t.isLt r 0]
  refine Finset.sum_congr rfl fun c _ => ?_
  unfold Em dist
  rw [rowS_rowBlk, colS_colBlk, rcG_blk]
  by_cases h : row t r = c
  · rw [if_pos h, if_pos (show 512 * (pt b t 1).val + r.val = c.val from congrArg Fin.val h)]
  · rw [if_neg h, if_neg (fun h' : 512 * (pt b t 1).val + r.val = c.val => h (Fin.ext h'))]

theorem stepXY_apply (b : Fin 32) (t : Fin 4) (prev : Vec Ideal S1x8x128 .f32) (u : Fin 1) (p : Fin 8) (l : Fin 128) :
    stepXY (F := Ideal) x b t prev (ix3 u p l) = prev (ix3 u p l) + tileXY x b t := by
  unfold stepXY
  rw [pay2_apply]
  refine congrArg (prev (ix3 u p l) + ·) ?_
  unfold tileXY
  refine Finset.sum_congr rfl fun r _ => ?_
  rw [pay6_apply, rowS_rowBlk]
  rfl

/-! ## Four steps from zero -/

theorem accYY_apply (b : Fin 32) (u : Fin 1) (p : Fin 8) (l : Fin 128) :
    accYY (F := Ideal) x b 3 (ix3 u p l) = w0 + tileYY x b 0 + tileYY x b 1 + tileYY x b 2 + tileYY x b 3 := by
  show stepYY (F := Ideal) x b ⟨(2 + 1) % 4, _⟩ (stepYY (F := Ideal) x b ⟨(1 + 1) % 4, _⟩
    (stepYY (F := Ideal) x b ⟨(0 + 1) % 4, _⟩ (stepYY (F := Ideal) x b 0 (k0_pay3 (F := Ideal))))) (ix3 u p l) = _
  rw [stepYY_apply, stepYY_apply, stepYY_apply, stepYY_apply]
  rfl

theorem accXY_apply (b : Fin 32) (u : Fin 1) (p : Fin 8) (l : Fin 128) :
    accXY (F := Ideal) x b 3 (ix3 u p l) = w0 + tileXY x b 0 + tileXY x b 1 + tileXY x b 2 + tileXY x b 3 := by
  show stepXY (F := Ideal) x b ⟨(2 + 1) % 4, _⟩ (stepXY (F := Ideal) x b ⟨(1 + 1) % 4, _⟩
    (stepXY (F := Ideal) x b ⟨(0 + 1) % 4, _⟩ (stepXY (F := Ideal) x b 0 (k0_pay4 (F := Ideal))))) (ix3 u p l) = _
  rw [stepXY_apply, stepXY_apply, stepXY_apply, stepXY_apply]
  rfl

/-! ## The closing arithmetic -/

/-- Entry `[b, 0, 0]` of a result array, as the closing arithmetic slices and reshapes it. -/
theorem corner_apply (y : Vec Ideal S32x8x128 .f32) (b : Fin 32) :
    shapeCast S32 (extractStridedSlice S32x1x1 ![0, 0, 0] y slices_S32x8x128_S32x1x1_0_0_0) shapeCasts_S32x1x1_S32 (ix1 b)
      = y (ix3 b (0 : Fin 8) (0 : Fin 128)) := by
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  · exact extractStridedSlice_apply _ _ _ _ (ix3 b (0 : Fin 8) (0 : Fin 128)) (fun a => by
      match a with
      | ⟨0, _⟩ => exact (Nat.zero_add _).symm
      | ⟨1, _⟩ => rfl
      | ⟨2, _⟩ => rfl)

theorem tail_apply (yy xy : Vec Ideal S32x8x128 .f32) (b : Fin 32) :
    Acc.tail (F := Ideal) yy xy (ix1 b)
      = tailAt (yy (ix3 b (0 : Fin 8) (0 : Fin 128))) (xy (ix3 b (0 : Fin 8) (0 : Fin 128))) := by
  unfold Acc.tail tailAt
  rw [← corner_apply yy b, ← corner_apply xy b]
  rfl

/-- THE KERNEL'S RESULT IS THE SPECIFICATION, batch by batch, for real inputs. -/
theorem result_apply (hfin : ∀ i, ∃ r : ℝ, x i = (r : EReal)) (b : Fin 32) :
    Acc.result (F := Ideal) x (ix1 b) = G x b := by
  unfold Acc.result
  rw [tail_apply]
  show tailAt (accYY (F := Ideal) x b 3 (ix3 (0 : Fin 1) (0 : Fin 8) (0 : Fin 128)))
    (accXY (F := Ideal) x b 3 (ix3 (0 : Fin 1) (0 : Fin 8) (0 : Fin 128))) = _
  rw [accYY_apply, accXY_apply, tiles_YY x hfin, tiles_XY]
  rfl

end Cert.Bridge.Ker

end
-- ==== Proof.RefSpec.lean ====
import proofs.«141074_j60129542698_2_alg».proof.Proof.Gen.ReferenceIdeal.Read
import proofs.«141074_j60129542698_2_alg».proof.Proof.Spec
import proofs.«141074_j60129542698_2_alg».proof.Proof.Layout

/-!
# The reference computes the estimator

The reference forms the squared norms by a sum over the 64 coordinates, the inner products by one batched product,
the 2048 × 2048 entries `exp ((-d) / 2)` and the 2048 entries `exp ((-s) / 4)` of each batch, sums them, and ends with
the closing arithmetic.  Read stage by stage at an index this is the specification; the only stage read by hand is
the sum over two axes at once, which is a double sum.
-/

noncomputable section

open scoped BigOperators

namespace Cert.Bridge.Ref

open Idealize.ShloMosaic Idealize.ShloMosaic.ValueIdx Cert.ReferenceIdeal Cert.ReferenceIdeal.Read Cert.Bridge.Layout

local notation "w0" => Ideal.ofBits FTy.f32 0x00000000#32
local notation "w2" => Ideal.ofBits FTy.f32 0x40000000#32
local notation "w4" => Ideal.ofBits FTy.f32 0x40800000#32

variable (x : Arr)

/-- The reference's squared norm of point `i` of batch `b` (its sum starts from the zero word). -/
theorem v1_apply (b : Fin 32) (i : Fin 2048) : val_main_v1 (F := Ideal) x (ix2 b i) = sq x b i := by
  rw [val_main_v1_apply, val_main_cst_apply]
  show w0 + _ = _
  rw [Ideal.ofBits_zero_f32, zero_add]
  unfold sq
  refine Finset.sum_congr rfl fun k _ => ?_
  have e : idx_main_v1 (ix2 b i) k = ix3 b i k := funext fun a => by
    match a with
    | ⟨0, _⟩ => rfl
    | ⟨1, _⟩ => rfl
    | ⟨2, _⟩ => rfl
  rw [val_main_v0_apply, e]
  rfl

/-- The reference's inner product of points `i` and `j`. -/
theorem v2_apply (b : Fin 32) (i j : Fin 2048) : val_main_v2 (F := Ideal) x (ix3 b i j) = gram x b i j := by
  rw [val_main_v2_apply]
  unfold gram
  refine Finset.sum_congr rfl fun k _ => ?_
  have el : lidx_main_v2 (ix3 b i j) k = ix3 b i k := funext fun a => by
    match a with
    | ⟨0, _⟩ => rfl
    | ⟨1, _⟩ => rfl
    | ⟨2, _⟩ => rfl
  have er : ridx_main_v2 (ix3 b i j) k = ix3 b j k := funext fun a => by
    match a with
    | ⟨0, _⟩ => rfl
    | ⟨1, _⟩ => rfl
    | ⟨2, _⟩ => rfl
  rw [el, er]

/-- The reference's pair entry. -/
theorem v14_apply (b : Fin 32) (i j : Fin 2048) : val_main_v14 (F := Ideal) x (ix3 b i j) = E x b i j := by
  have e5 : idx_main_v3 (idx_main_v5 (ix3 b i j)) = ix2 b i := funext fun a => by
    match a with
    | ⟨0, _⟩ => rfl
    | ⟨1, _⟩ => rfl
  have e6 : idx_main_v4 (idx_main_v6 (ix3 b i j)) = ix2 b j := funext fun a => by
    match a with
    | ⟨0, _⟩ => rfl
    | ⟨1, _⟩ => rfl
  rw [val_main_v14_apply, val_main_v13_apply, val_main_v11_apply, val_main_v12_apply, val_main_cst_1_apply,
    val_main_v10_apply, val_main_v7_apply, val_main_v9_apply, val_main_v5_apply, val_main_v6_apply, val_main_v3_apply,
    val_main_v4_apply, val_main_v8_apply, val_main_cst_0_apply, e5, e6, v1_apply, v1_apply, v2_apply]
  rfl

/-- The reference's single-point entry. -/
theorem v18_apply (b : Fin 32) (i : Fin 2048) : val_main_v18 (F := Ideal) x (ix2 b i) = e x b i := by
  rw [val_main_v18_apply, val_main_v17_apply, val_main_v15_apply, val_main_v16_apply, val_main_cst_2_apply, v1_apply]
  rfl

/-- The reference's sum over both point axes is the double sum, from the zero word. -/
theorem v19_apply (b : Fin 32) : val_main_v19 (F := Ideal) x (ix1 b) = w0 + YY x b := by
  unfold val_main_v19
  generalize hy : val_main_v14 (F := Ideal) x = y
  simp only [Host.reduceAdd, Ideal.hostReduceAdd_def]
  unfold Ideal.hostReduceAdd
  rw [sum_fibre3 Cert.ReferenceIdeal.Gen.reducesTo_S32x2048x2048_S32_d1_2 y b]
  subst hy
  unfold YY
  simp only [v14_apply]
  rfl

/-- The reference's sum of the single-point entries, from the zero word. -/
theorem v22_apply (b : Fin 32) : val_main_v22 (F := Ideal) x (ix1 b) = w0 + XY x b := by
  rw [val_main_v22_apply, val_main_cst_5_apply]
  unfold XY
  refine congrArg (w0 + ·) (Finset.sum_congr rfl fun k _ => ?_)
  have e : idx_main_v22 (ix1 b) k = ix2 b k := funext fun a => by
    match a with
    | ⟨0, _⟩ => rfl
    | ⟨1, _⟩ => rfl
  rw [e, v18_apply]

/-- THE REFERENCE IS THE SPECIFICATION, batch by batch. -/
theorem ref_apply (b : Fin 32) : val_main_v29 (F := Ideal) x (ix1 b) = G x b := by
  rw [val_main_v29_apply, val_main_v28_apply, val_main_v26_apply, val_main_v27_apply, val_main_cst_8_apply,
    val_main_v21_apply, val_main_v20_apply, val_main_cst_4_apply, val_main_v24_apply, val_main_v23_apply,
    val_main_cst_6_apply, val_main_v25_apply, val_main_cst_7_apply, v19_apply, v22_apply]
  rfl

end Cert.Bridge.Ref

end
-- ==== Proof.Finite.lean ====
import proofs.«141074_j60129542698_2_alg».proof.Proof.Gen.Pre_finite_inputs
import Idealize.ShloMosaic.Lib.ReduceAll
import Idealize.ShloMosaic.Lib.ValueIdx
import Idealize.ShloMosaic.PureOps.Ideal.Laws

/-!
# The precondition says every input is a real number

The precondition is `all (|x| < +∞)`: the conjunction over all entries of the comparison of the absolute value with the
word of `+∞`.  If the conjunction is true every comparison is; on the extended reals `max a (-a) < ⊤` excludes
`a = ⊤` and `a = ⊥`, so `a` is a real number.
-/

noncomputable section

namespace Cert.Bridge

open Idealize.ShloMosaic Idealize.ShloMosaic.ValueIdx

/-- The scalar shape has one index. -/
instance subsingleton_scalar_idx : Subsingleton Cert.Pre_finite_inputs.S_.Idx := ⟨fun _ _ => funext fun d => d.elim0⟩

/-- The word `0x7F800000` is `+∞`. -/
theorem inf_eq : Ideal.ofBits FTy.f32 0x7F800000#32 = ⊤ := by
  simp [Ideal.ofBits, Ideal.ieee]

/-- An extended real whose absolute value is below `+∞` is a real number. -/
theorem real_of_abs_lt_top (a : EReal) (h : max a (-a) < ⊤) : ∃ r : ℝ, a = (r : EReal) := by
  induction a using EReal.rec with
  | bot => simp at h
  | coe r => exact ⟨r, rfl⟩
  | top => simp at h

theorem finite_of_pre' (x : FVec Ideal Cert.Pre_finite_inputs.S32x2048x64 .f32)
    (h : Cert.Pre_finite_inputs.fn (F := Ideal) x = fun _ => 1#1) : ∀ i, ∃ r : ℝ, x i = (r : EReal) := by
  intro i
  have h0 := congrFun h ix0
  dsimp only [Cert.Pre_finite_inputs.fn] at h0
  have hi := Host.reduce_andi_all _ _ _ _ _ h0 i
  have hc : Ideal.cmp .olt (max (x i) (-(x i))) (Ideal.ofBits FTy.f32 0x7F800000#32) = 1#1 := hi
  rw [inf_eq] at hc
  refine real_of_abs_lt_top (x i) ?_
  by_contra hn
  simp [Ideal.cmp, hn] at hc

end Cert.Bridge

end
-- ==== Proof.Bridge.lean ====
import proofs.«141074_j60129542698_2_alg».proof.Proof.KerAcc
import proofs.«141074_j60129542698_2_alg».proof.Proof.RefSpec
import proofs.«141074_j60129542698_2_alg».proof.Proof.Finite

/-!
# The kernel's result function is the reference's

Both are the estimator of the specification at every batch: the kernel's for real inputs (the diagonal entries it
forces to one are one), the reference's always.  The precondition makes every input real.
-/

noncomputable section

namespace Cert.Bridge

open Idealize.ShloMosaic Idealize.ShloMosaic.ValueIdx

/-- For real inputs the kernel program's result, as a function of its input, is the reference's. -/
theorem result_eq (x : Idealize.ShloMosaic.Vec Ideal Cert.KernelIdeal.S32x2048x64 .f32)
    (hfin : ∀ i, ∃ r : ℝ, x i = (r : EReal)) :
    Cert.KernelIdeal.Acc.result (F := Ideal) x = Cert.ReferenceIdeal.Read.val_main_v29 (F := Ideal) x := by
  funext k
  obtain ⟨b, rfl⟩ : ∃ b : Fin 32, k = ix1 b := ⟨k 0, eq_ix1 k⟩
  exact (Ker.result_apply x hfin b).trans (Ref.ref_apply x b).symm

/-- Under the precondition every input is a real number. -/
theorem finite_of_pre (x : Idealize.ShloMosaic.Vec Ideal Cert.KernelIdeal.S32x2048x64 .f32)
    (h : Cert.Pre_finite_inputs.fn (F := Ideal) x = fun _ => 1#1) : ∀ i, ∃ r : ℝ, x i = (r : EReal) :=
  finite_of_pre' x h

end Cert.Bridge

end
-- ==== Proof.lean ====
/-
  A Pallas kernel for a pairwise RBF-kernel MMD estimator against its jnp reference, over the extended reals.

  Per batch `b` of the input `x : [32, 2048, 64]` both programs compute
    `c₀ + (Σ_{i,j} exp (-(‖x_i‖² + ‖x_j‖² - 2 x_i·x_j) / 2)) / 4192256 - (2⁻¹⁰ · Σ_i exp (-‖x_i‖² / 4)) · 2⁻³²`.
  The kernel walks a 32 × 4 grid, at point `(b, i)` adding the partial sums of rows `512·i … 512·i + 511` to two
  accumulator blocks of batch `b`, and forces the diagonal terms `i = j` to `1`; the reference sums everything
  at once and has `exp (-((s + s) - 2·s) / 2)` on the diagonal, which is `exp 0 = 1` because `s = ‖x_i‖²` is a real
  number when the inputs are finite — the one use of the precondition.  Sums regroup freely (addition of
  extended reals is commutative and associative), the bf16 rounding before the matrix product is the identity
  at the ideal instance, and the closing host arithmetic is the same on both sides.

  The kernel's run: the body as a triple (Body), what the staging buffers hold point by point (Dats, Oblig),
  the launch of the pipeline whose two input windows read one array, each holding half of it, followed by the
  host lines (Launch), and the two result arrays as functions of the input (Acc, Final).  The word-level
  program's frame is the same argument at the bit-exact instance (the K-prefixed modules).  The value bridge
  (Bridge) equates the kernel's result function with the reference's generated read-back.
-/
import proofs.«141074_j60129542698_2_alg».proof.Defs
import proofs.«141074_j60129542698_2_alg».proof.Proof.Gen.Kernel
import proofs.«141074_j60129542698_2_alg».proof.Proof.Gen.KernelIdeal
import proofs.«141074_j60129542698_2_alg».proof.Proof.Gen.ReferenceIdeal
import proofs.«141074_j60129542698_2_alg».proof.Proof.Gen.Pre_finite_inputs
import proofs.«141074_j60129542698_2_alg».proof.Proof.Gen.ReferenceIdeal.Read
import proofs.«141074_j60129542698_2_alg».proof.Proof.Oblig
import proofs.«141074_j60129542698_2_alg».proof.Proof.Final
import proofs.«141074_j60129542698_2_alg».proof.Proof.Launch
import proofs.«141074_j60129542698_2_alg».proof.Proof.KOblig
import proofs.«141074_j60129542698_2_alg».proof.Proof.KLaunch
import proofs.«141074_j60129542698_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to its end and leaves its argument as it was. -/
theorem frame_k : Cert.frame_Kernel := fun m ρ _ =>
  (θ_run Cert.Kernel.defs _ _).mono (fun _ h c => (h c).2)
    (Cert.Kernel.Fr.run_main (F := Bits) m ρ fun c => (Cert.Kernel.Fr.body_obligation m c).loose)

/-- So does the idealized kernel program. -/
theorem frame_ki : Cert.frame_KernelIdeal := fun m ρ _ =>
  (θ_run Cert.KernelIdeal.defs _ _).mono (fun _ h c => (h c).2)
    (Cert.KernelIdeal.Fr.run_main (F := Ideal) m ρ fun c => (Cert.KernelIdeal.Fr.body_obligation m c).loose)

/-- And the reference: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the argument both programs end with the same result: the kernel's run ends at the
    closing arithmetic of its two result arrays, which are the accumulator recursions of the argument; the
    reference's at its composed term; for finite inputs these are one function. -/
theorem algebraic : Cert.algebraic_KernelIdeal_ReferenceIdeal := by
  intro m ρ m' ρ' hpre hagree
  refine ⟨fun c => Cert.KernelIdeal.Acc.result (F := Ideal) (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.Fr.run_main (F := Ideal) m ρ fun c => (Cert.KernelIdeal.Fr.body_obligation m c).loose)
    rw [Cert.KernelIdeal.Fr.final2, Cert.KernelIdeal.Fr.final3]
    rfl
  · refine (θ_run Cert.ReferenceIdeal.defs _ _).mono (fun r h c => ⟨(h c).1.trans ?_, (h c).2⟩)
      (Cert.ReferenceIdeal.Value.run (F := Ideal) m' ρ')
    rw [hagree c, Cert.ReferenceIdeal.Read.val_main_v29_eq]
    exact (Cert.Bridge.result_eq _ (Cert.Bridge.finite_of_pre _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
